-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x100 : Shape := ⟨2, ![32768, 100]⟩
abbrev S32768x16 : Shape := ⟨2, ![32768, 16]⟩
abbrev S32768x10x184 : Shape := ⟨3, ![32768, 10, 184]⟩
abbrev S264x256 : Shape := ⟨2, ![264, 256]⟩
abbrev S256 : Shape := ⟨1, ![256]⟩
abbrev S256x192 : Shape := ⟨2, ![256, 192]⟩
abbrev S192 : Shape := ⟨1, ![192]⟩
abbrev S192x256 : Shape := ⟨2, ![192, 256]⟩
abbrev S256x1 : Shape := ⟨2, ![256, 1]⟩
abbrev S1 : Shape := ⟨1, ![1]⟩
abbrev S_ : Shape := ⟨0, ![]⟩

class Facts : Prop where
  bcast_S_S32768x100 : S_.BroadcastsInDim S32768x100 (![] : Fin 0 → Fin S32768x100.rank)
  reducesTo_S32768x100_S_d0_1 : S32768x100.ReducesTo [0, 1] S_
  h_S_ : 0 < S_.numel
  bcast_S_S32768x16 : S_.BroadcastsInDim S32768x16 (![] : Fin 0 → Fin S32768x16.rank)
  reducesTo_S32768x16_S_d0_1 : S32768x16.ReducesTo [0, 1] S_
  bcast_S_S32768x10x184 : S_.BroadcastsInDim S32768x10x184 (![] : Fin 0 → Fin S32768x10x184.rank)
  reducesTo_S32768x10x184_S_d0_1_2 : S32768x10x184.ReducesTo [0, 1, 2] S_
  bcast_S_S264x256 : S_.BroadcastsInDim S264x256 (![] : Fin 0 → Fin S264x256.rank)
  reducesTo_S264x256_S_d0_1 : S264x256.ReducesTo [0, 1] S_
  bcast_S_S256 : S_.BroadcastsInDim S256 (![] : Fin 0 → Fin S256.rank)
  reducesTo_S256_S_d0 : S256.ReducesTo [0] S_
  bcast_S_S256x192 : S_.BroadcastsInDim S256x192 (![] : Fin 0 → Fin S256x192.rank)
  reducesTo_S256x192_S_d0_1 : S256x192.ReducesTo [0, 1] S_
  bcast_S_S192 : S_.BroadcastsInDim S192 (![] : Fin 0 → Fin S192.rank)
  reducesTo_S192_S_d0 : S192.ReducesTo [0] S_
  bcast_S_S192x256 : S_.BroadcastsInDim S192x256 (![] : Fin 0 → Fin S192x256.rank)
  reducesTo_S192x256_S_d0_1 : S192x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg18 : FVec F S1 .f32) (main_v83 : IVec S_ 1) (main_v84 : FVec F S256x1 .f32) (main_cst_32 : FVec F S_ .f32) : IVec S_ 1 :=
  let main_v85 : FVec F S256x1 .f32 := broadcastInDim S256x1 ![] bcast_S_S256x1 main_cst_32
  let main_v86 : IVec S256x1 1 := cmpf .olt main_v84 main_v85
  let main_c_33 : IVec S_ 1 := constantI S_ 1 1#1
  let main_v87 : IVec S_ 1 := (fun x v => Host.reduce IntOp.andi x v reducesTo_S256x1_S_d0_1 h_S_) main_v86 main_c_33
  let main_v88 : IVec S_ 1 := andi main_v83 main_v87
  let main_v89 : FVec F S1 .f32 := Host.absf main_arg18
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg14 : FVec F S1 .f32) (main_arg15 : FVec F S192x256 .f32) (main_arg16 : FVec F S256 .f32) (main_arg17 : FVec F S256x1 .f32) (main_arg18 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : FVec F S192x256 .f32 := Host.absf main_arg15
  let main_cst_28 : FVec F S_ .f32 := constant S_ .f32 0x7F800000#32
  let main_v75 : FVec F S192x256 .f32 := broadcastInDim S192x256 ![] bcast_S_S192x256 main_cst_28
  let main_v76 : IVec S192x256 1 := cmpf .olt main_v74 main_v75
  let main_c_29 : IVec S_ 1 := constantI S_ 1 1#1
  let main_v77 : IVec S_ 1 := (fun x v => Host.reduce IntOp.andi x v reducesTo_S192x256_S_d0_1 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x1 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S192x256 .f32) (main_arg12 : FVec F S256 .f32) (main_arg13 : FVec F S256x1 .f32) (main_arg14 : FVec F S1 .f32) (main_arg15 : FVec F S192x256 .f32) (main_arg16 : FVec F S256 .f32) (main_arg17 : FVec F S256x1 .f32) (main_arg18 : FVec F S1 .f32) (main_v48 : IVec S_ 1) (main_v49 : FVec F S192 .f32) (main_v50 : FVec F S192 .f32) : IVec S_ 1 :=
  let main_v51 : IVec S192 1 := cmpf .olt main_v49 main_v50
  let main_c_19 : IVec S_ 1 := constantI S_ 1 1#1
  let main_v52 : IVec S_ 1 := (fun x v => Host.reduce IntOp.andi x v reducesTo_S192_S_d0 h_S_) main_v51 main_c_19
  let main_v53 : IVec S_ 1 := andi main_v48 main_v52
  let main_v54 : FVec F S192x256 .f32 := Host.absf main_arg11
  let main_cst_20 : FVec F S_ .f32 := constant S_ .f32 0x7F800000#32
  let main_v55 : FVec F S192x256 .f32 := broadcastInDim S192x256 ![] bcast_S_S192x256 main_cst_20
  let main_v56 : IVec S192x256 1 := cmpf .olt main_v54 main_v55
  let main_c_21 : IVec S_ 1 := constantI S_ 1 1#1
  let main_v57 : IVec S_ 1 := (fun x v => Host.reduce IntOp.andi x v reducesTo_S192x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x1 .f32 := Host.absf main_arg13
  let main_cst_24 : FVec F S_ .f32 := constant S_ .f32 0x7F800000#32
  let main_v65 : FVec F S256x1 .f32 := broadcastInDim S256x1 ![] bcast_S_S256x1 main_cst_24
  let main_v66 : IVec S256x1 1 := cmpf .olt main_v64 main_v65
  let main_c_25 : IVec S_ 1 := constantI S_ 1 1#1
  let main_v67 : IVec S_ 1 := (fun x v => Host.reduce IntOp.andi x v reducesTo_S256x1_S_d0_1 h_S_) main_v66 main_c_25
  fn_part4 (F := F) main_arg14 main_arg15 main_arg16 main_arg17 main_arg18 main_v63 main_v67

def fn_part2 {F : FTy → Type} [FloatOps F] (main_arg7 : FVec F S264x256 .f32) (main_arg8 : FVec F S256 .f32) (main_arg9 : FVec F S256x192 .f32) (main_arg10 : FVec F S192 .f32) (main_arg11 : FVec F S192x256 .f32) (main_arg12 : FVec F S256 .f32) (main_arg13 : FVec F S256x1 .f32) (main_arg14 : FVec F S1 .f32) (main_arg15 : FVec F S192x256 .f32) (main_arg16 : FVec F S256 .f32) (main_arg17 : FVec F S256x1 .f32) (main_arg18 : FVec F S1 .f32) (main_v33 : IVec S_ 1) : IVec S_ 1 :=
  let main_v34 : FVec F S264x256 .f32 := Host.absf main_arg7
  let main_cst_12 : FVec F S_ .f32 := constant S_ .f32 0x7F800000#32
  let main_v35 : FVec F S264x256 .f32 := broadcastInDim S264x256 ![] bcast_S_S264x256 main_cst_12
  let main_v36 : IVec S264x256 1 := cmpf .olt main_v34 main_v35
  let main_c_13 : IVec S_ 1 := constantI S_ 1 1#1
  let main_v37 : IVec S_ 1 := (fun x v => Host.reduce IntOp.andi x v reducesTo_S264x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x192 .f32 := Host.absf main_arg9
  let main_cst_16 : FVec F S_ .f32 := constant S_ .f32 0x7F800000#32
  let main_v45 : FVec F S256x192 .f32 := broadcastInDim S256x192 ![] bcast_S_S256x192 main_cst_16
  let main_v46 : IVec S256x192 1 := cmpf .olt main_v44 main_v45
  let main_c_17 : IVec S_ 1 := constantI S_ 1 1#1
  let main_v47 : IVec S_ 1 := (fun x v => Host.reduce IntOp.andi x v reducesTo_S256x192_S_d0_1 h_S_) main_v46 main_c_17
  let main_v48 : IVec S_ 1 := andi main_v43 main_v47
  let main_v49 : FVec F S192 .f32 := Host.absf main_arg10
  let main_cst_18 : FVec F S_ .f32 := constant S_ .f32 0x7F800000#32
  let main_v50 : FVec F S192 .f32 := broadcastInDim S192 ![] bcast_S_S192 main_cst_18
  fn_part3 (F := F) main_arg11 main_arg12 main_arg13 main_arg14 main_arg15 main_arg16 main_arg17 main_arg18 main_v48 main_v49 main_v50

def fn_part1 {F : FTy → Type} [FloatOps F] (main_arg4 : FVec F S256 .f32) (main_arg5 : FVec F S256x192 .f32) (main_arg6 : FVec F S192 .f32) (main_arg7 : FVec F S264x256 .f32) (main_arg8 : FVec F S256 .f32) (main_arg9 : FVec F S256x192 .f32) (main_arg10 : FVec F S192 .f32) (main_arg11 : FVec F S192x256 .f32) (main_arg12 : FVec F S256 .f32) (main_arg13 : FVec F S256x1 .f32) (main_arg14 : FVec F S1 .f32) (main_arg15 : FVec F S192x256 .f32) (main_arg16 : FVec F S256 .f32) (main_arg17 : FVec F S256x1 .f32) (main_arg18 : FVec F S1 .f32) (main_v13 : IVec S_ 1) (main_v16 : IVec S264x256 1) : IVec S_ 1 :=
  let main_c_5 : IVec S_ 1 := constantI S_ 1 1#1
  let main_v17 : IVec S_ 1 := (fun x v => Host.reduce IntOp.andi x v reducesTo_S264x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x192 .f32 := Host.absf main_arg5
  let main_cst_8 : FVec F S_ .f32 := constant S_ .f32 0x7F800000#32
  let main_v25 : FVec F S256x192 .f32 := broadcastInDim S256x192 ![] bcast_S_S256x192 main_cst_8
  let main_v26 : IVec S256x192 1 := cmpf .olt main_v24 main_v25
  let main_c_9 : IVec S_ 1 := constantI S_ 1 1#1
  let main_v27 : IVec S_ 1 := (fun x v => Host.reduce IntOp.andi x v reducesTo_S256x192_S_d0_1 h_S_) main_v26 main_c_9
  let main_v28 : IVec S_ 1 := andi main_v23 main_v27
  let main_v29 : FVec F S192 .f32 := Host.absf main_arg6
  let main_cst_10 : FVec F S_ .f32 := constant S_ .f32 0x7F800000#32
  let main_v30 : FVec F S192 .f32 := broadcastInDim S192 ![] bcast_S_S192 main_cst_10
  let main_v31 : IVec S192 1 := cmpf .olt main_v29 main_v30
  let main_c_11 : IVec S_ 1 := constantI S_ 1 1#1
  let main_v32 : IVec S_ 1 := (fun x v => Host.reduce IntOp.andi x v reducesTo_S192_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S32768x100 .f32) (main_arg1 : FVec F S32768x16 .f32) (main_arg2 : FVec F S32768x10x184 .f32) (main_arg3 : FVec F S264x256 .f32) (main_arg4 : FVec F S256 .f32) (main_arg5 : FVec F S256x192 .f32) (main_arg6 : FVec F S192 .f32) (main_arg7 : FVec F S264x256 .f32) (main_arg8 : FVec F S256 .f32) (main_arg9 : FVec F S256x192 .f32) (main_arg10 : FVec F S192 .f32) (main_arg11 : FVec F S192x256 .f32) (main_arg12 : FVec F S256 .f32) (main_arg13 : FVec F S256x1 .f32) (main_arg14 : FVec F S1 .f32) (main_arg15 : FVec F S192x256 .f32) (main_arg16 : FVec F S256 .f32) (main_arg17 : FVec F S256x1 .f32) (main_arg18 : FVec F S1 .f32) : IVec S_ 1 :=
  let main_v0 : FVec F S32768x100 .f32 := Host.absf main_arg0
  let main_cst : FVec F S_ .f32 := constant S_ .f32 0x7F800000#32
  let main_v1 : FVec F S32768x100 .f32 := broadcastInDim S32768x100 ![] bcast_S_S32768x100 main_cst
  let main_v2 : IVec S32768x100 1 := cmpf .olt main_v0 main_v1
  let main_c : IVec S_ 1 := constantI S_ 1 1#1
  let main_v3 : IVec S_ 1 := (fun x v => Host.reduce IntOp.andi x v reducesTo_S32768x100_S_d0_1 h_S_) main_v2 main_c
  let main_v4 : FVec F S32768x16 .f32 := Host.absf main_arg1
  let main_cst_0 : FVec F S_ .f32 := constant S_ .f32 0x7F800000#32
  let main_v5 : FVec F S32768x16 .f32 := broadcastInDim S32768x16 ![] bcast_S_S32768x16 main_cst_0
  let main_v6 : IVec S32768x16 1 := cmpf .olt main_v4 main_v5
  let main_c_1 : IVec S_ 1 := constantI S_ 1 1#1
  let main_v7 : IVec S_ 1 := (fun x v => Host.reduce IntOp.andi x v reducesTo_S32768x16_S_d0_1 h_S_) main_v6 main_c_1
  let main_v8 : IVec S_ 1 := andi main_v3 main_v7
  let main_v9 : FVec F S32768x10x184 .f32 := Host.absf main_arg2
  let main_cst_2 : FVec F S_ .f32 := constant S_ .f32 0x7F800000#32
  let main_v10 : FVec F S32768x10x184 .f32 := broadcastInDim S32768x10x184 ![] bcast_S_S32768x10x184 main_cst_2
  let main_v11 : IVec S32768x10x184 1 := cmpf .olt main_v9 main_v10
  let main_c_3 : IVec S_ 1 := constantI S_ 1 1#1
  let main_v12 : IVec S_ 1 := (fun x v => Host.reduce IntOp.andi x v reducesTo_S32768x10x184_S_d0_1_2 h_S_) main_v11 main_c_3
  let main_v13 : IVec S_ 1 := andi main_v8 main_v12
  let main_v14 : FVec F S264x256 .f32 := Host.absf main_arg3
  let main_cst_4 : FVec F S_ .f32 := constant S_ .f32 0x7F800000#32
  let main_v15 : FVec F S264x256 .f32 := broadcastInDim S264x256 ![] bcast_S_S264x256 main_cst_4
  let main_v16 : IVec S264x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S32768x100 : Shape := ⟨2, ![32768, 100]⟩
abbrev S32768x16 : Shape := ⟨2, ![32768, 16]⟩
abbrev S32768x10x184 : Shape := ⟨3, ![32768, 10, 184]⟩
abbrev S264x256 : Shape := ⟨2, ![264, 256]⟩
abbrev S256 : Shape := ⟨1, ![256]⟩
abbrev S256x192 : Shape := ⟨2, ![256, 192]⟩
abbrev S192 : Shape := ⟨1, ![192]⟩
abbrev S192x256 : Shape := ⟨2, ![192, 256]⟩
abbrev S256x1 : Shape := ⟨2, ![256, 1]⟩
abbrev S1 : Shape := ⟨1, ![1]⟩
abbrev S32768x64 : Shape := ⟨2, ![32768, 64]⟩
abbrev S32768x80 : Shape := ⟨2, ![32768, 80]⟩
abbrev S80x256 : Shape := ⟨2, ![80, 256]⟩
abbrev S184x256 : Shape := ⟨2, ![184, 256]⟩
abbrev S1x256 : Shape := ⟨2, ![1, 256]⟩
abbrev S1x192 : Shape := ⟨2, ![1, 192]⟩
abbrev S1x1 : Shape := ⟨2, ![1, 1]⟩
abbrev S32768x1 : Shape := ⟨2, ![32768, 1]⟩
abbrev S1024x80 : Shape := ⟨2, ![1024, 80]⟩
abbrev S1024x10x184 : Shape := ⟨3, ![1024, 10, 184]⟩
abbrev S1024x1 : Shape := ⟨2, ![1024, 1]⟩
abbrev S10240x184 : Shape := ⟨2, ![10240, 184]⟩
abbrev S1024x256 : Shape := ⟨2, ![1024, 256]⟩
abbrev S10240x256 : Shape := ⟨2, ![10240, 256]⟩
abbrev S1024x10x256 : Shape := ⟨3, ![1024, 10, 256]⟩
abbrev S1024x1x256 : Shape := ⟨3, ![1024, 1, 256]⟩
abbrev S1x1x256 : Shape := ⟨3, ![1, 1, 256]⟩
abbrev S10240x192 : Shape := ⟨2, ![10240, 192]⟩
abbrev S1024x10x192 : Shape := ⟨3, ![1024, 10, 192]⟩
abbrev S1024x192 : Shape := ⟨2, ![1024, 192]⟩

abbrev nBuf : Space → Nat
  | .hbm => 41
  | .vmem => 26
  | .smem => 0
  | _ => 0

abbrev bufTy : (tb : Table) → Fin (tcTables nBuf tb) → BufTy
  | .hbm, ⟨0, _⟩ => ⟨S32768x100, .f32⟩
  | .hbm, ⟨1, _⟩ => ⟨S32768x16, .f32⟩
  | .hbm, ⟨2, _⟩ => ⟨S32768x10x184, .f32⟩
  | .hbm, ⟨3, _⟩ => ⟨S264x256, .f32⟩
  | .hbm, ⟨4, _⟩ => ⟨S256, .f32⟩
  | .hbm, ⟨5, _⟩ => ⟨S256x192, .f32⟩
  | .hbm, ⟨6, _⟩ => ⟨S192, .f32⟩
  | .hbm, ⟨7, _⟩ => ⟨S264x256, .f32⟩
  | .hbm, ⟨8, _⟩ => ⟨S256, .f32⟩
  | .hbm, ⟨9, _⟩ => ⟨S256x192, .f32⟩
  | .hbm, ⟨10, _⟩ => ⟨S192, .f32⟩
  | .hbm, ⟨11, _⟩ => ⟨S192x256, .f32⟩
  | .hbm, ⟨12, _⟩ => ⟨S256, .f32⟩
  | .hbm, ⟨13, _⟩ => ⟨S256x1, .f32⟩
  | .hbm, ⟨14, _⟩ => ⟨S1, .f32⟩
  | .hbm, ⟨15, _⟩ => ⟨S192x256, .f32⟩
  | .hbm, ⟨16, _⟩ => ⟨S256, .f32⟩
  | .hbm, ⟨17, _⟩ => ⟨S256x1, .f32⟩
  | .hbm, ⟨18, _⟩ => ⟨S1, .f32⟩
  | .hbm, ⟨19, _⟩ => ⟨S32768x64, .f32⟩
  | .hbm, ⟨20, _⟩ => ⟨S32768x80, .f32⟩
  | .hbm, ⟨21, _⟩ => ⟨S80x256, .f32⟩
  | .hbm, ⟨22, _⟩ => ⟨S80x256, .bf16⟩
  | .hbm, ⟨23, _⟩ => ⟨S184x256, .f32⟩
  | .hbm, ⟨24, _⟩ => ⟨S184x256, .bf16⟩
  | .hbm, ⟨25, _⟩ => ⟨S80x256, .f32⟩
  | .hbm, ⟨26, _⟩ => ⟨S80x256, .bf16⟩
  | .hbm, ⟨27, _⟩ => ⟨S184x256, .f32⟩
  | .hbm, ⟨28, _⟩ => ⟨S184x256, .bf16⟩
  | .hbm, ⟨29, _⟩ => ⟨S256x192, .bf16⟩
  | .hbm, ⟨30, _⟩ => ⟨S256x192, .bf16⟩
  | .hbm, ⟨31, _⟩ => ⟨S1x256, .f32⟩
  | .hbm, ⟨32, _⟩ => ⟨S1x192, .f32⟩
  | .hbm, ⟨33, _⟩ => ⟨S1x256, .f32⟩
  | .hbm, ⟨34, _⟩ => ⟨S1x192, .f32⟩
  | .hbm, ⟨35, _⟩ => ⟨S1x256, .f32⟩
  | .hbm, ⟨36, _⟩ => ⟨S1x1, .f32⟩
  | .hbm, ⟨37, _⟩ => ⟨S1x256, .f32⟩
  | .hbm, ⟨38, _⟩ => ⟨S1x1, .f32⟩
  | .hbm, ⟨39, _⟩ => ⟨S32768x1, .f32⟩
  | .hbm, ⟨40, _⟩ => ⟨S32768x1, .f32⟩
  | .local _ .vmem, ⟨0, _⟩ => ⟨S1024x80, .f32⟩
  | .local _ .vmem, ⟨1, _⟩ => ⟨S1024x80, .f32⟩
  | .local _ .vmem, ⟨2, _⟩ => ⟨S1024x10x184, .f32⟩
  | .local _ .vmem, ⟨3, _⟩ => ⟨S1024x10x184, .f32⟩
  | .local _ .vmem, ⟨4, _⟩ => ⟨S80x256, .bf16⟩
  | .local _ .vmem, ⟨5, _⟩ => ⟨S184x256, .bf16⟩
  | .local _ .vmem, ⟨6, _⟩ => ⟨S1x256, .f32⟩
  | .local _ .vmem, ⟨7, _⟩ => ⟨S256x192, .bf16⟩
  | .local _ .vmem, ⟨8, _⟩ => ⟨S1x192, .f32⟩
  | .local _ .vmem, ⟨9, _⟩ => ⟨S80x256, .bf16⟩
  | .local _ .vmem, ⟨10, _⟩ => ⟨S184x256, .bf16⟩
  | .local _ .vmem, ⟨11, _⟩ => ⟨S1x256, .f32⟩
  | .local _ .vmem, ⟨12, _⟩ => ⟨S256x192, .bf16⟩
  | .local _ .vmem, ⟨13, _⟩ => ⟨S1x192, .f32⟩
  | .local _ .vmem, ⟨14, _⟩ => ⟨S192x256, .f32⟩
  | .local _ .vmem, ⟨15, _⟩ => ⟨S1x256, .f32⟩
  | .local _ .vmem, ⟨16, _⟩ => ⟨S256x1, .f32⟩
  | .local _ .vmem, ⟨17, _⟩ => ⟨S1x1, .f32⟩
  | .local _ .vmem, ⟨18, _⟩ => ⟨S192x256, .f32⟩
  | .local _ .vmem, ⟨19, _⟩ => ⟨S1x256, .f32⟩
  | .local _ .vmem, ⟨20, _⟩ => ⟨S256x1, .f32⟩
  | .local _ .vmem, ⟨21, _⟩ => ⟨S1x1, .f32⟩
  | .local _ .vmem, ⟨22, _⟩ => ⟨S1024x1, .f32⟩
  | .local _ .vmem, ⟨23, _⟩ => ⟨S1024x1, .f32⟩
  | .local _ .vmem, ⟨24, _⟩ => ⟨S1024x1, .f32⟩
  | .local _ .vmem, ⟨25, _⟩ => ⟨S1024x1, .f32⟩
  | _, _ => ⟨S32768x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20_0 : Ref sig .tc := ⟨.hbm, 39, rfl⟩
abbrev main_v20_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg20_1 : Ref sig .tc := ⟨.vmem, 23, rfl⟩
abbrev cc0_stg21_0 : Ref sig .tc := ⟨.vmem, 24, rfl⟩
abbrev cc0_stg21_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem20_1 : DmaSem sig := 23
abbrev cc0_sem21_0 : DmaSem sig := 24
abbrev cc0_sem21_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x10x184 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S80x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S184x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S80x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S184x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x192 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x192 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S192x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S192x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S1024x1 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1024x1 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

class Facts₀ : Prop where
  slices_S32768x100_S32768x64_0_0 : S32768x100.Slices ![0, 0] S32768x64
  concatenates_S32768x64_S32768x16_S32768x80_d1 : Shape.Concatenates [S32768x64, S32768x16] S32768x80 1
  slices_S264x256_S80x256_0_0 : S264x256.Slices ![0, 0] S80x256
  bitsLt_bf16_f32 : FTy.bits .bf16 < FTy.bits .f32
  slices_S264x256_S184x256_80_0 : S264x256.Slices ![80, 0] S184x256
  shapeCasts_S256_S1x256 : S256.ShapeCasts S1x256
  shapeCasts_S192_S1x192 : S192.ShapeCasts S1x192
  shapeCasts_S1_S1x1 : S1.ShapeCasts S1x1
  inb_S1024x80_S1024x80_0_0 : ∀ a, (![0, 0] : Fin 2 → Nat) a + S1024x80.size a ≤ S1024x80.size a
  h_S1024x80 : 0 < S1024x80.numel
  shapeCasts_S1024x80_S1024x80 : S1024x80.ShapeCasts S1024x80
  inb_S1024x10x184_S1024x10x184_0_0_0 : ∀ a, (![0, 0, 0] : Fin 3 → Nat) a + S1024x10x184.size a ≤ S1024x10x184.size a
  h_S1024x10x184 : 0 < S1024x10x184.numel
  shapeCasts_S1024x10x184_S10240x184 : S1024x10x184.ShapeCasts S10240x184
  inb_S80x256_S80x256_0_0 : ∀ a, (![0, 0] : Fin 2 → Nat) a + S80x256.size a ≤ S80x256.size a
  h_S80x256 : 0 < S80x256.numel
  shapeCasts_S80x256_S80x256 : S80x256.ShapeCasts S80x256
  inb_S184x256_S184x256_0_0 : ∀ a, (![0, 0] : Fin 2 → Nat) a + S184x256.size a ≤ S184x256.size a
  h_S184x256 : 0 < S184x256.numel
  shapeCasts_S184x256_S184x256 : S184x256.ShapeCasts S184x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S10240x256_S1024x10x256 : S10240x256.ShapeCasts S1024x10x256
  shapeCasts_S1024x256_S1024x1x256 : S1024x256.ShapeCasts S1024x1x256
  broadcasts_S1024x1x256_S1024x10x256 : S1024x1x256.Broadcasts S1024x10x256
  shapeCasts_S1x256_S1x1x256 : S1x256.ShapeCasts S1x1x256
  broadcasts_S1x1x256_S1024x10x256 : S1x1x256.Broadcasts S1024x10x256
  shapeCasts_S1024x10x256_S10240x256 : S1024x10x256.ShapeCasts S10240x256
  inb_S256x192_S256x192_0_0 : ∀ a, (![0, 0] : Fin 2 → Nat) a + S256x192.size a ≤ S256x192.size a
  h_S256x192 : 0 < S256x192.numel
  shapeCasts_S256x192_S256x192 : S256x192.ShapeCasts S256x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S10240x192 : S1x192.Broadcasts S10240x192
  shapeCasts_S10240x192_S1024x10x192 : S10240x192.ShapeCasts S1024x10x192
  reduces_S1024x10x192_S1024x192 : S1024x10x192.Reduces [1] S1024x192
  inb_S192x256_S192x256_0_0 : ∀ a, (![0, 0] : Fin 2 → Nat) a + S192x256.size a ≤ S192x256.size a
  h_S192x256 : 0 < S192x256.numel
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x256_S1024x256 : S1x256.Broadcasts S1024x256
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x80_S80x256_S1024x256_1_0_0_1_n_n_wf : DotDims.WF S1024x80 S80x256 S1024x256 [1] [0] [0] [1] [] []
  dot_S10240x184_S184x256_S10240x256_1_0_0_1_n_n_wf : DotDims.WF S10240x184 S184x256 S10240x256 [1] [0] [0] [1] [] []
  dot_S10240x256_S256x192_S10240x192_1_0_0_1_n_n_wf : DotDims.WF S10240x256 S256x192 S10240x192 [1] [0] [0] [1] [] []
  dot_S1024x192_S192x256_S1024x256_1_0_0_1_n_n_wf : DotDims.WF S1024x192 S192x256 S1024x256 [1] [0] [0] [1] [] []
  dot_S1024x256_S256x1_S1024x1_1_0_0_1_n_n_wf : DotDims.WF S1024x256 S256x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x80.size a ≤ S32768x80.size a
  hwx0_0 : ∀ i : grid0.Coords, EltTy.bits .f32 = 32 ∨ (Rect.block (s := S32768x80) S1024x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x10x184.size a ≤ S32768x10x184.size a
  hwx0_1 : ∀ i : grid0.Coords, EltTy.bits .f32 = 32 ∨ (Rect.block (s := S32768x10x184) S1024x10x184.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S80x256.size a ≤ S80x256.size a
  hwx0_2 : ∀ i : grid0.Coords, EltTy.bits .bf16 = 32 ∨ (Rect.block (s := S80x256) S80x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S184x256.size a ≤ S184x256.size a
  hwx0_3 : ∀ i : grid0.Coords, EltTy.bits .bf16 = 32 ∨ (Rect.block (s := S184x256) S184x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x192.size a ≤ S256x192.size a
  hwx0_5 : ∀ i : grid0.Coords, EltTy.bits .bf16 = 32 ∨ (Rect.block (s := S256x192) S256x192.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x192.size a ≤ S1x192.size a
  hwx0_6 : ∀ i : grid0.Coords, EltTy.bits .f32 = 32 ∨ (Rect.block (s := S1x192) S1x192.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S80x256.size a ≤ S80x256.size a
  hwx0_7 : ∀ i : grid0.Coords, EltTy.bits .bf16 = 32 ∨ (Rect.block (s := S80x256) S80x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S184x256.size a ≤ S184x256.size a
  hwx0_8 : ∀ i : grid0.Coords, EltTy.bits .bf16 = 32 ∨ (Rect.block (s := S184x256) S184x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x192.size a ≤ S256x192.size a
  hwx0_10 : ∀ i : grid0.Coords, EltTy.bits .bf16 = 32 ∨ (Rect.block (s := S256x192) S256x192.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x192.size a ≤ S1x192.size a
  hwx0_11 : ∀ i : grid0.Coords, EltTy.bits .f32 = 32 ∨ (Rect.block (s := S1x192) S1x192.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S192x256.size a ≤ S192x256.size a
  hwx0_12 : ∀ i : grid0.Coords, EltTy.bits .f32 = 32 ∨ (Rect.block (s := S192x256) S192x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x1.size a ≤ S256x1.size a
  hwx0_14 : ∀ i : grid0.Coords, EltTy.bits .f32 = 32 ∨ (Rect.block (s := S256x1) S256x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1.size a ≤ S1x1.size a
  hwx0_15 : ∀ i : grid0.Coords, EltTy.bits .f32 = 32 ∨ (Rect.block (s := S1x1) S1x1.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S192x256.size a ≤ S192x256.size a
  hwx0_16 : ∀ i : grid0.Coords, EltTy.bits .f32 = 32 ∨ (Rect.block (s := S192x256) S192x256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x256.size a ≤ S1x256.size a
  hwx0_17 : ∀ i : grid0.Coords, EltTy.bits .f32 = 32 ∨ (Rect.block (s := S1x256) S1x256.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S256x1.size a ≤ S256x1.size a
  hwx0_18 : ∀ i : grid0.Coords, EltTy.bits .f32 = 32 ∨ (Rect.block (s := S256x1) S256x1.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x1.size a ≤ S1x1.size a
  hwx0_19 : ∀ i : grid0.Coords, EltTy.bits .f32 = 32 ∨ (Rect.block (s := S1x1) S1x1.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S1024x1.size a ≤ S32768x1.size a
  hwx0_20 : ∀ i : grid0.Coords, EltTy.bits .f32 = 32 ∨ (Rect.block (s := S32768x1) S1024x1.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S1024x1.size a ≤ S32768x1.size a
  hwx0_21 : ∀ i : grid0.Coords, EltTy.bits .f32 = 32 ∨ (Rect.block (s := S32768x1) S1024x1.size (cc0_transform_21 i) (hinb0_21 i)).WholeWords (EltTy.packing .f32)

variable [Facts₀]

def dot_S1024x80_S80x256_S1024x256_1_0_0_1_n_n : DotDims S1024x80 S80x256 S1024x256 where
  lhsContracting := [1]
  rhsContracting := [0]
  lhsNonContracting := [0]
  rhsNonContracting := [1]
  lhsBatch := []
  rhsBatch := []
  wf := dot_S1024x80_S80x256_S1024x256_1_0_0_1_n_n_wf
def dot_S10240x184_S184x256_S10240x256_1_0_0_1_n_n : DotDims S10240x184 S184x256 S10240x256 where
  lhsContracting := [1]
  rhsContracting := [0]
  lhsNonContracting := [0]
  rhsNonContracting := [1]
  lhsBatch := []
  rhsBatch := []
  wf := dot_S10240x184_S184x256_S10240x256_1_0_0_1_n_n_wf
def dot_S10240x256_S256x192_S10240x192_1_0_0_1_n_n : DotDims S10240x256 S256x192 S10240x192 where
  lhsContracting := [1]
  rhsContracting := [0]
  lhsNonContracting := [0]
  rhsNonContracting := [1]
  lhsBatch := []
  rhsBatch := []
  wf := dot_S10240x256_S256x192_S10240x192_1_0_0_1_n_n_wf
def dot_S1024x192_S192x256_S1024x256_1_0_0_1_n_n : DotDims S1024x192 S192x256 S1024x256 where
  lhsContracting := [1]
  rhsContracting := [0]
  lhsNonContracting := [0]
  rhsNonContracting := [1]
  lhsBatch := []
  rhsBatch := []
  wf := dot_S1024x192_S192x256_S1024x256_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf

abbrev win0_0 : Pipeline.Window sig grid0 :=
  Pipeline.Window.ofSpec (Memref.whole main_v1) S1024x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x10x184.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S80x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S184x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S256x192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x192.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S80x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S184x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S256x192.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v15) S1x192.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S192x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v16) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg13) S256x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v17) S1x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg15) S192x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v18) S1x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg17) S256x1.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v19) S1x1.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v20_0) S1024x1.size cc0_transform_20 reads0_20 true false 2 stage0_20 sem0_20
    hrank0 hreads0_20 hinb0_20 nbuf0_20 (Memref.isWhole_whole _) hwx0_20 hstage0_20

abbrev win0_21 : Pipeline.Window sig grid0 :=
  Pipeline.Window.ofSpec (Memref.whole main_v20_1) S1024x1.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

class Facts : Prop extends Facts₀ where

variable [Facts]
-- ==== ReferenceIdeal.lean ====
abbrev S32768x100 : Shape := ⟨2, ![32768, 100]⟩
abbrev S32768x16 : Shape := ⟨2, ![32768, 16]⟩
abbrev S32768x10x184 : Shape := ⟨3, ![32768, 10, 184]⟩
abbrev S264x256 : Shape := ⟨2, ![264, 256]⟩
abbrev S256 : Shape := ⟨1, ![256]⟩
abbrev S256x192 : Shape := ⟨2, ![256, 192]⟩
abbrev S192 : Shape := ⟨1, ![192]⟩
abbrev S192x256 : Shape := ⟨2, ![192, 256]⟩
abbrev S256x1 : Shape := ⟨2, ![256, 1]⟩
abbrev S1 : Shape := ⟨1, ![1]⟩
abbrev S32768x64 : Shape := ⟨2, ![32768, 64]⟩
abbrev S32768x80 : Shape := ⟨2, ![32768, 80]⟩
abbrev S32768x1x80 : Shape := ⟨3, ![32768, 1, 80]⟩
abbrev S32768x10x80 : Shape := ⟨3, ![32768, 10, 80]⟩
abbrev S32768x10x264 : Shape := ⟨3, ![32768, 10, 264]⟩
abbrev S32768x10x256 : Shape := ⟨3, ![32768, 10, 256]⟩
abbrev S1x1x256 : Shape := ⟨3, ![1, 1, 256]⟩
abbrev S_ : Shape := ⟨0, ![]⟩
abbrev S32768x10x192 : Shape := ⟨3, ![32768, 10, 192]⟩
abbrev S1x1x192 : Shape := ⟨3, ![1, 1, 192]⟩
abbrev S32768x192 : Shape := ⟨2, ![32768, 192]⟩
abbrev S32768x256 : Shape := ⟨2, ![32768, 256]⟩
abbrev S1x256 : Shape := ⟨2, ![1, 256]⟩
abbrev S32768x1 : Shape := ⟨2, ![32768, 1]⟩
abbrev S1x1 : Shape := ⟨2, ![1, 1]⟩

abbrev nBuf : Space → Nat
  | .hbm => 78
  | .vmem => 0
  | .smem => 0
  | _ => 0

abbrev bufTy : (tb : Table) → Fin (tcTables nBuf tb) → BufTy
  | .hbm, ⟨0, _⟩ => ⟨S32768x100, .f32⟩
  | .hbm, ⟨1, _⟩ => ⟨S32768x16, .f32⟩
  | .hbm, ⟨2, _⟩ => ⟨S32768x10x184, .f32⟩
  | .hbm, ⟨3, _⟩ => ⟨S264x256, .f32⟩
  | .hbm, ⟨4, _⟩ => ⟨S256, .f32⟩
  | .hbm, ⟨5, _⟩ => ⟨S256x192, .f32⟩
  | .hbm, ⟨6, _⟩ => ⟨S192, .f32⟩
  | .hbm, ⟨7, _⟩ => ⟨S264x256, .f32⟩
  | .hbm, ⟨8, _⟩ => ⟨S256, .f32⟩
  | .hbm, ⟨9, _⟩ => ⟨S256x192, .f32⟩
  | .hbm, ⟨10, _⟩ => ⟨S192, .f32⟩
  | .hbm, ⟨11, _⟩ => ⟨S192x256, .f32⟩
  | .hbm, ⟨12, _⟩ => ⟨S256, .f32⟩
  | .hbm, ⟨13, _⟩ => ⟨S256x1, .f32⟩
  | .hbm, ⟨14, _⟩ => ⟨S1, .f32⟩
  | .hbm, ⟨15, _⟩ => ⟨S192x256, .f32⟩
  | .hbm, ⟨16, _⟩ => ⟨S256, .f32⟩
  | .hbm, ⟨17, _⟩ => ⟨S256x1, .f32⟩
  | .hbm, ⟨18, _⟩ => ⟨S1, .f32⟩
  | .hbm, ⟨19, _⟩ => ⟨S32768x64, .f32⟩
  | .hbm, ⟨20, _⟩ => ⟨S32768x80, .f32⟩
  | .hbm, ⟨21, _⟩ => ⟨S32768x1x80, .f32⟩
  | .hbm, ⟨22, _⟩ => ⟨S32768x10x80, .f32⟩
  | .hbm, ⟨23, _⟩ => ⟨S32768x10x264, .f32⟩
  | .hbm, ⟨24, _⟩ => ⟨S32768x10x256, .f32⟩
  | .hbm, ⟨25, _⟩ => ⟨S1x1x256, .f32⟩
  | .hbm, ⟨26, _⟩ => ⟨S32768x10x256, .f32⟩
  | .hbm, ⟨27, _⟩ => ⟨S32768x10x256, .f32⟩
  | .hbm, ⟨28, _⟩ => ⟨S_, .f32⟩
  | .hbm, ⟨29, _⟩ => ⟨S32768x10x256, .f32⟩
  | .hbm, ⟨30, _⟩ => ⟨S32768x10x256, .f32⟩
  | .hbm, ⟨31, _⟩ => ⟨S32768x10x192, .f32⟩
  | .hbm, ⟨32, _⟩ => ⟨S1x1x192, .f32⟩
  | .hbm, ⟨33, _⟩ => ⟨S32768x10x192, .f32⟩
  | .hbm, ⟨34, _⟩ => ⟨S32768x10x192, .f32⟩
  | .hbm, ⟨35, _⟩ => ⟨S_, .f32⟩
  | .hbm, ⟨36, _⟩ => ⟨S32768x10x192, .f32⟩
  | .hbm, ⟨37, _⟩ => ⟨S32768x10x192, .f32⟩
  | .hbm, ⟨38, _⟩ => ⟨S_, .f32⟩
  | .hbm, ⟨39, _⟩ => ⟨S32768x192, .f32⟩
  | .hbm, ⟨40, _⟩ => ⟨S32768x10x256, .f32⟩
  | .hbm, ⟨41, _⟩ => ⟨S1x1x256, .f32⟩
  | .hbm, ⟨42, _⟩ => ⟨S32768x10x256, .f32⟩
  | .hbm, ⟨43, _⟩ => ⟨S32768x10x256, .f32⟩
  | .hbm, ⟨44, _⟩ => ⟨S_, .f32⟩
  | .hbm, ⟨45, _⟩ => ⟨S32768x10x256, .f32⟩
  | .hbm, ⟨46, _⟩ => ⟨S32768x10x256, .f32⟩
  | .hbm, ⟨47, _⟩ => ⟨S32768x10x192, .f32⟩
  | .hbm, ⟨48, _⟩ => ⟨S1x1x192, .f32⟩
  | .hbm, ⟨49, _⟩ => ⟨S32768x10x192, .f32⟩
  | .hbm, ⟨50, _⟩ => ⟨S32768x10x192, .f32⟩
  | .hbm, ⟨51, _⟩ => ⟨S_, .f32⟩
  | .hbm, ⟨52, _⟩ => ⟨S32768x10x192, .f32⟩
  | .hbm, ⟨53, _⟩ => ⟨S32768x10x192, .f32⟩
  | .hbm, ⟨54, _⟩ => ⟨S_, .f32⟩
  | .hbm, ⟨55, _⟩ => ⟨S32768x192, .f32⟩
  | .hbm, ⟨56, _⟩ => ⟨S32768x256, .f32⟩
  | .hbm, ⟨57, _⟩ => ⟨S1x256, .f32⟩
  | .hbm, ⟨58, _⟩ => ⟨S32768x256, .f32⟩
  | .hbm, ⟨59, _⟩ => ⟨S32768x256, .f32⟩
  | .hbm, ⟨60, _⟩ => ⟨S_, .f32⟩
  | .hbm, ⟨61, _⟩ => ⟨S32768x256, .f32⟩
  | .hbm, ⟨62, _⟩ => ⟨S32768x256, .f32⟩
  | .hbm, ⟨63, _⟩ => ⟨S32768x1, .f32⟩
  | .hbm, ⟨64, _⟩ => ⟨S1x1, .f32⟩
  | .hbm, ⟨65, _⟩ => ⟨S32768x1, .f32⟩
  | .hbm, ⟨66, _⟩ => ⟨S32768x1, .f32⟩
  | .hbm, ⟨67, _⟩ => ⟨S32768x256, .f32⟩
  | .hbm, ⟨68, _⟩ => ⟨S1x256, .f32⟩
  | .hbm, ⟨69, _⟩ => ⟨S32768x256, .f32⟩
  | .hbm, ⟨70, _⟩ => ⟨S32768x256, .f32⟩
  | .hbm, ⟨71, _⟩ => ⟨S_, .f32⟩
  | .hbm, ⟨72, _⟩ => ⟨S32768x256, .f32⟩
  | .hbm, ⟨73, _⟩ => ⟨S32768x256, .f32⟩
  | .hbm, ⟨74, _⟩ => ⟨S32768x1, .f32⟩
  | .hbm, ⟨75, _⟩ => ⟨S1x1, .f32⟩
  | .hbm, ⟨76, _⟩ => ⟨S32768x1, .f32⟩
  | .hbm, ⟨77, _⟩ => ⟨S32768x1, .f32⟩
  | _, _ => ⟨S32768x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_call0_cst : Ref sig .tc := ⟨.hbm, 28, rfl⟩
abbrev main_call0_v0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_call1_cst : Ref sig .tc := ⟨.hbm, 35, rfl⟩
abbrev main_call1_v0 : Ref sig .tc := ⟨.hbm, 36, rfl⟩
abbrev main_v14 : Ref sig .tc := ⟨.hbm, 37, rfl⟩
abbrev main_cst : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_call2_cst : Ref sig .tc := ⟨.hbm, 44, rfl⟩
abbrev main_call2_v0 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_call3_cst : Ref sig .tc := ⟨.hbm, 51, rfl⟩
abbrev main_call3_v0 : Ref sig .tc := ⟨.hbm, 52, rfl⟩
abbrev main_v25 : Ref sig .tc := ⟨.hbm, 53, rfl⟩
abbrev main_cst_0 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_call4_cst : Ref sig .tc := ⟨.hbm, 60, rfl⟩
abbrev main_call4_v0 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_call5_cst : Ref sig .tc := ⟨.hbm, 71, rfl⟩
abbrev main_call5_v0 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩

abbrev nD : Nat := 1
abbrev τ : Topo := Topo.v7x

variable {F : FTy → Type} [FloatOps F]

class Facts₀ : Prop where
  slices_S32768x100_S32768x64_0_0 : S32768x100.Slices ![0, 0] S32768x64
  concatenates_S32768x64_S32768x16_S32768x80_d1 : Shape.Concatenates [S32768x64, S32768x16] S32768x80 1
  bcast_S32768x80_S32768x1x80_0_2 : S32768x80.BroadcastsInDim S32768x1x80 (![0, 2] : Fin 2 → Fin S32768x1x80.rank)
  bcast_S32768x1x80_S32768x10x80_0_1_2 : S32768x1x80.BroadcastsInDim S32768x10x80 (![0, 1, 2] : Fin 3 → Fin S32768x10x80.rank)
  concatenates_S32768x10x80_S32768x10x184_S32768x10x264_d2 : Shape.Concatenates [S32768x10x80, S32768x10x184] S32768x10x264 2
  bcast_S256_S1x1x256_2 : S256.BroadcastsInDim S1x1x256 (![2] : Fin 1 → Fin S1x1x256.rank)
  bcast_S1x1x256_S32768x10x256_0_1_2 : S1x1x256.BroadcastsInDim S32768x10x256 (![0, 1, 2] : Fin 3 → Fin S32768x10x256.rank)
  bcast_S_S32768x10x256 : S_.BroadcastsInDim S32768x10x256 (![] : Fin 0 → Fin S32768x10x256.rank)
  bcast_S192_S1x1x192_2 : S192.BroadcastsInDim S1x1x192 (![2] : Fin 1 → Fin S1x1x192.rank)
  bcast_S1x1x192_S32768x10x192_0_1_2 : S1x1x192.BroadcastsInDim S32768x10x192 (![0, 1, 2] : Fin 3 → Fin S32768x10x192.rank)
  bcast_S_S32768x10x192 : S_.BroadcastsInDim S32768x10x192 (![] : Fin 0 → Fin S32768x10x192.rank)
  reducesTo_S32768x10x192_S32768x192_d1 : S32768x10x192.ReducesTo [1] S32768x192
  h_S_ : 0 < S_.numel
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  dot_S32768x10x264_S264x256_S32768x10x256_2_0_01_1_n_n_wf : DotDims.WF S32768x10x264 S264x256 S32768x10x256 [2] [0] [0, 1] [1] [] []
  dot_S32768x10x256_S256x192_S32768x10x192_2_0_01_1_n_n_wf : DotDims.WF S32768x10x256 S256x192 S32768x10x192 [2] [0] [0, 1] [1] [] []
  dot_S32768x192_S192x256_S32768x256_1_0_0_1_n_n_wf : DotDims.WF S32768x192 S192x256 S32768x256 [1] [0] [0] [1] [] []
  dot_S32768x256_S256x1_S32768x1_1_0_0_1_n_n_wf : DotDims.WF S32768x256 S256x1 S32768x1 [1] [0] [0] [1] [] []

variable [Facts₀]

def dot_S32768x10x264_S264x256_S32768x10x256_2_0_01_1_n_n : DotDims S32768x10x264 S264x256 S32768x10x256 where
  lhsContracting := [2]
  rhsContracting := [0]
  lhsNonContracting := [0, 1]
  rhsNonContracting := [1]
  lhsBatch := []
  rhsBatch := []
  wf := dot_S32768x10x264_S264x256_S32768x10x256_2_0_01_1_n_n_wf
def dot_S32768x10x256_S256x192_S32768x10x192_2_0_01_1_n_n : DotDims S32768x10x256 S256x192 S32768x10x192 where
  lhsContracting := [2]
  rhsContracting := [0]
  lhsNonContracting := [0, 1]
  rhsNonContracting := [1]
  lhsBatch := []
  rhsBatch := []
  wf := dot_S32768x10x256_S256x192_S32768x10x192_2_0_01_1_n_n_wf
def dot_S32768x192_S192x256_S32768x256_1_0_0_1_n_n : DotDims S32768x192 S192x256 S32768x256 where
  lhsContracting := [1]
  rhsContracting := [0]
  lhsNonContracting := [0]
  rhsNonContracting := [1]
  lhsBatch := []
  rhsBatch := []
  wf := dot_S32768x192_S192x256_S32768x256_1_0_0_1_n_n_wf
def dot_S32768x256_S256x1_S32768x1_1_0_0_1_n_n : DotDims S32768x256 S256x1 S32768x1 where
  lhsContracting := [1]
  rhsContracting := [0]
  lhsNonContracting := [0]
  rhsNonContracting := [1]
  lhsBatch := []
  rhsBatch := []
  wf := dot_S32768x256_S256x1_S32768x1_1_0_0_1_n_n_wf

class Facts : Prop extends Facts₀ where

variable [Facts]
-- ==== Proof.KernelArrays.lean ====
/-
  The kernel's input windows, read at an entry.

  Before the region the host prepares the windows' arrays: the 80 body-and-action columns (a slice of the observation
  joined with the action), the two row ranges 0..79 and 80..263 of each first-layer weight matrix, each bias as a
  one-row matrix, the second-layer weights with their format changed (the identity on the extended reals). The grid has
  32 points; point t holds rows 1024 t .. 1024 t + 1023 of the two batch-indexed arrays and the whole of every other
  array. So an entry of a window's block at point t is an entry of an ARGUMENT array:

    rows      block 0 at (p, d) is the body-and-action array at (1024 t + p, d); block 1 at (p, o, d) the context argument
              at (1024 t + p, o, d);
    weights   blocks 2 / 7 at (d, h) are the first-layer weights at (d, h), blocks 3 / 8 at (d, h) the same at (80 + d, h);
              blocks 5 / 10, 12 / 16, 14 / 18 are the arguments themselves;
    biases    blocks 4, 6, 9, 11, 13, 15, 17, 19 at (0, h) are the bias vectors at h.

  `idxW` are the printed index maps decided over the 32 points; `V_main_vJ` say what the host wrote; `blkW` are the reads.
-/
import proofs.«156536_j73959336837233_2_alg».proof.Proof.Gen.KernelIdeal.Value
import Idealize.ShloMosaic.Lib.ValueLayout
import Idealize.ShloMosaic.Lib.ValueIdx
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## The index maps over the grid -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 2) = 0 ∧ win0_15.index t (1 : Fin 2) = 0 :=
  (by decide +kernel : ∀ t : Fin grid0.N, _)
theorem idx16 : ∀ t : Fin cfg0.N, win0_16.index t (0 : Fin 2) = 0 ∧ win0_16.index t (1 : Fin 2) = 0 :=
  (by decide +kernel : ∀ t : Fin grid0.N, _)
theorem idx17 : ∀ t : Fin cfg0.N, win0_17.index t (0 : Fin 2) = 0 ∧ win0_17.index t (1 : Fin 2) = 0 :=
  (by decide +kernel : ∀ t : Fin grid0.N, _)
theorem idx18 : ∀ t : Fin cfg0.N, win0_18.index t (0 : Fin 2) = 0 ∧ win0_18.index t (1 : Fin 2) = 0 :=
  (by decide +kernel : ∀ t : Fin grid0.N, _)
theorem idx19 : ∀ t : Fin cfg0.N, win0_19.index t (0 : Fin 2) = 0 ∧ win0_19.index t (1 : Fin 2) = 0 :=
  (by decide +kernel : ∀ t : Fin grid0.N, _)
theorem idx20 : ∀ t : Fin cfg0.N, win0_20.index t (0 : Fin 2) = t.val ∧ win0_20.index t (1 : Fin 2) = 0 :=
  (by decide +kernel : ∀ t : Fin grid0.N, _)
theorem idx21 : ∀ t : Fin cfg0.N, win0_21.index t (0 : Fin 2) = t.val ∧ win0_21.index t (1 : Fin 2) = 0 :=
  (by decide +kernel : ∀ t : Fin grid0.N, _)

/-! ## What the host wrote into the windows' arrays -/

/-- The body-and-action array: the observation's first 64 columns joined with the action's 16. -/
theorem V_main_v1 (c : Dev nD) : @Eq (FVec Ideal S32768x80 .f32) (V m c main_v1)
    (concatenate S32768x80 1 [⟨S32768x64, extractStridedSlice S32768x64 ![0, 0] ((m ((c : Thread nD τ).loc main_arg0)) : FVec Ideal S32768x100 .f32) slices_S32768x100_S32768x64_0_0⟩,
      ⟨S32768x16, ((m ((c : Thread nD τ).loc main_arg1)) : FVec Ideal S32768x16 .f32)⟩] concatenates_S32768x64_S32768x16_S32768x80_d1) := by
  dsimp only [V, hostOps0]; after_results <;> rfl

theorem V_main_v3 (c : Dev nD) : @Eq (FVec Ideal S80x256 .bf16) (V m c main_v3)
    (truncf .bf16 (extractStridedSlice S80x256 ![0, 0] ((m ((c : Thread nD τ).loc main_arg3)) : FVec Ideal S264x256 .f32) slices_S264x256_S80x256_0_0) bitsLt_bf16_f32) := by
  dsimp only [V, hostOps0]; after_results <;> rfl
theorem V_main_v5 (c : Dev nD) : @Eq (FVec Ideal S184x256 .bf16) (V m c main_v5)
    (truncf .bf16 (extractStridedSlice S184x256 ![80, 0] ((m ((c : Thread nD τ).loc main_arg3)) : FVec Ideal S264x256 .f32) slices_S264x256_S184x256_80_0) bitsLt_bf16_f32) := by
  dsimp only [V, hostOps0]; after_results <;> rfl
theorem V_main_v12 (c : Dev nD) : @Eq (FVec Ideal S1x256 .f32) (V m c main_v12)
    (shapeCast S1x256 ((m ((c : Thread nD τ).loc main_arg4)) : FVec Ideal S256 .f32) shapeCasts_S256_S1x256) := by
  dsimp only [V, hostOps0]; after_results <;> rfl
theorem V_main_v10 (c : Dev nD) : @Eq (FVec Ideal S256x192 .bf16) (V m c main_v10)
    (truncf .bf16 ((m ((c : Thread nD τ).loc main_arg5)) : FVec Ideal S256x192 .f32) bitsLt_bf16_f32) := by
  dsimp only [V, hostOps0]; after_results <;> rfl
theorem V_main_v13 (c : Dev nD) : @Eq (FVec Ideal S1x192 .f32) (V m c main_v13)
    (shapeCast S1x192 ((m ((c : Thread nD τ).loc main_arg6)) : FVec Ideal S192 .f32) shapeCasts_S192_S1x192) := by
  dsimp only [V, hostOps0]; after_results <;> rfl
theorem V_main_v7 (c : Dev nD) : @Eq (FVec Ideal S80x256 .bf16) (V m c main_v7)
    (truncf .bf16 (extractStridedSlice S80x256 ![0, 0] ((m ((c : Thread nD τ).loc main_arg7)) : FVec Ideal S264x256 .f32) slices_S264x256_S80x256_0_0) bitsLt_bf16_f32) := by
  dsimp only [V, hostOps0]; after_results <;> rfl
theorem V_main_v9 (c : Dev nD) : @Eq (FVec Ideal S184x256 .bf16) (V m c main_v9)
    (truncf .bf16 (extractStridedSlice S184x256 ![80, 0] ((m ((c : Thread nD τ).loc main_arg7)) : FVec Ideal S264x256 .f32) slices_S264x256_S184x256_80_0) bitsLt_bf16_f32) := by
  dsimp only [V, hostOps0]; after_results <;> rfl
theorem V_main_v14 (c : Dev nD) : @Eq (FVec Ideal S1x256 .f32) (V m c main_v14)
    (shapeCast S1x256 ((m ((c : Thread nD τ).loc main_arg8)) : FVec Ideal S256 .f32) shapeCasts_S256_S1x256) := by
  dsimp only [V, hostOps0]; after_results <;> rfl
theorem V_main_v11 (c : Dev nD) : @Eq (FVec Ideal S256x192 .bf16) (V m c main_v11)
    (truncf .bf16 ((m ((c : Thread nD τ).loc main_arg9)) : FVec Ideal S256x192 .f32) bitsLt_bf16_f32) := by
  dsimp only [V, hostOps0]; after_results <;> rfl
theorem V_main_v15 (c : Dev nD) : @Eq (FVec Ideal S1x192 .f32) (V m c main_v15)
    (shapeCast S1x192 ((m ((c : Thread nD τ).loc main_arg10)) : FVec Ideal S192 .f32) shapeCasts_S192_S1x192) := by
  dsimp only [V, hostOps0]; after_results <;> rfl
theorem V_main_v16 (c : Dev nD) : @Eq (FVec Ideal S1x256 .f32) (V m c main_v16)
    (shapeCast S1x256 ((m ((c : Thread nD τ).loc main_arg12)) : FVec Ideal S256 .f32) shapeCasts_S256_S1x256) := by
  dsimp only [V, hostOps0]; after_results <;> rfl
theorem V_main_v17 (c : Dev nD) : @Eq (FVec Ideal S1x1 .f32) (V m c main_v17)
    (shapeCast S1x1 ((m ((c : Thread nD τ).loc main_arg14)) : FVec Ideal S1 .f32) shapeCasts_S1_S1x1) := by
  dsimp only [V, hostOps0]; after_results <;> rfl
theorem V_main_v18 (c : Dev nD) : @Eq (FVec Ideal S1x256 .f32) (V m c main_v18)
    (shapeCast S1x256 ((m ((c : Thread nD τ).loc main_arg16)) : FVec Ideal S256 .f32) shapeCasts_S256_S1x256) := by
  dsimp only [V, hostOps0]; after_results <;> rfl
theorem V_main_v19 (c : Dev nD) : @Eq (FVec Ideal S1x1 .f32) (V m c main_v19)
    (shapeCast S1x1 ((m ((c : Thread nD τ).loc main_arg18)) : FVec Ideal S1 .f32) shapeCasts_S1_S1x1) := by
  dsimp only [V, hostOps0]; after_results <;> rfl

/-! ## The blocks read at an entry -/

theorem blk0 (c : Dev nD) (t : Fin cfg0.N) (p : Fin 1024) (d : Fin 80) (hlt : t.val * 1024 + p.val < 32768) :
    (iblk m c 0 t : Vec Ideal S1024x80 .f32) (ix2 p d)
      = (V m c main_v1 : FVec Ideal S32768x80 .f32) (ix2 (⟨t.val * 1024 + p.val, hlt⟩ : Fin 32768) d) := by
  obtain ⟨e0, e1⟩ := idx0 t
  unfold iblk
  rw [View.read_apply]
  show (V m c main_v1 : FVec Ideal S32768x80 .f32) _ = _
  congr 1
  funext a
  apply Fin.ext
  match a with
  | ⟨0, _⟩ => show win0_0.index t 0 * 1024 + 1 * p.val = t.val * 1024 + p.val; rw [e0]; omega
  | ⟨1, _⟩ => show win0_0.index t 1 * 80 + 1 * d.val = d.val; rw [e1]; omega

theorem blk1 (c : Dev nD) (t : Fin cfg0.N) (p : Fin 1024) (o : Fin 10) (d : Fin 184) (hlt : t.val * 1024 + p.val < 32768) :
    (iblk m c 1 t : Vec Ideal S1024x10x184 .f32) (ix3 p o d)
      = ((m ((c : Thread nD τ).loc main_arg2)) : FVec Ideal S32768x10x184 .f32) (ix3 (⟨t.val * 1024 + p.val, hlt⟩ : Fin 32768) o d) := by
  obtain ⟨e0, e1, e2⟩ := idx1 t
  unfold iblk
  rw [View.read_apply]
  show (V m c main_arg2 : FVec Ideal S32768x10x184 .f32) _ = _
  rw [V_main_arg2]
  congr 1
  funext a
  apply Fin.ext
  match a with
  | ⟨0, _⟩ => show win0_1.index t 0 * 1024 + 1 * p.val = t.val * 1024 + p.val; rw [e0]; omega
  | ⟨1, _⟩ => show win0_1.index t 1 * 10 + 1 * o.val = o.val; rw [e1]; omega
  | ⟨2, _⟩ => show win0_1.index t 2 * 184 + 1 * d.val = d.val; rw [e2]; omega

theorem blk2 (c : Dev nD) (t : Fin cfg0.N) (d : Fin 80) (h : Fin 256) :
    (iblk m c 2 t : Vec Ideal S80x256 .bf16) (ix2 d h)
      = ((m ((c : Thread nD τ).loc main_arg3)) : FVec Ideal S264x256 .f32) (ix2 (⟨d.val, by omega⟩ : Fin 264) h) := by
  obtain ⟨e0, e1⟩ := idx2 t
  unfold iblk
  rw [View.read_apply]
  show (V m c main_v3 : FVec Ideal S80x256 .bf16) _ = _
  rw [V_main_v3, truncf_apply]
  refine extractStridedSlice_apply _ _ _ _ _ fun a => ?_
  match a with
  | ⟨0, _⟩ => show d.val = 0 + (win0_2.index t 0 * 80 + 1 * d.val); rw [e0]; omega
  | ⟨1, _⟩ => show h.val = 0 + (win0_2.index t 1 * 256 + 1 * h.val); rw [e1]; omega

theorem blk3 (c : Dev nD) (t : Fin cfg0.N) (d : Fin 184) (h : Fin 256) :
    (iblk m c 3 t : Vec Ideal S184x256 .bf16) (ix2 d h)
      = ((m ((c : Thread nD τ).loc main_arg3)) : FVec Ideal S264x256 .f32) (ix2 (⟨80 + d.val, by omega⟩ : Fin 264) h) := by
  obtain ⟨e0, e1⟩ := idx3 t
  unfold iblk
  rw [View.read_apply]
  show (V m c main_v5 : FVec Ideal S184x256 .bf16) _ = _
  rw [V_main_v5, truncf_apply]
  refine extractStridedSlice_apply _ _ _ _ _ fun a => ?_
  match a with
  | ⟨0, _⟩ => show 80 + d.val = 80 + (win0_3.index t 0 * 184 + 1 * d.val); rw [e0]; omega
  | ⟨1, _⟩ => show h.val = 0 + (win0_3.index t 1 * 256 + 1 * h.val); rw [e1]; omega

theorem blk4 (c : Dev nD) (t : Fin cfg0.N) (h : Fin 256) :
    (iblk m c 4 t : Vec Ideal S1x256 .f32) (ix2 (0 : Fin 1) h) = ((m ((c : Thread nD τ).loc main_arg4)) : FVec Ideal S256 .f32) (ix1 h) := by
  obtain ⟨e0, e1⟩ := idx4 t
  unfold iblk
  rw [View.read_apply]
  show (V m c main_v12 : FVec Ideal S1x256 .f32) _ = _
  rw [V_main_v12]
  refine shapeCast_apply _ _ _ (ix1 h) ?_
  rw [Shape.rowMajor_val_one, Shape.rowMajor_val_two]
  show h.val = (win0_4.index t 0 * 1 + 1 * 0) * 256 + (win0_4.index t 1 * 256 + 1 * h.val)
  rw [e0, e1]; omega

theorem blk5 (c : Dev nD) (t : Fin cfg0.N) (h : Fin 256) (f : Fin 192) :
    (iblk m c 5 t : Vec Ideal S256x192 .bf16) (ix2 h f) = ((m ((c : Thread nD τ).loc main_arg5)) : FVec Ideal S256x192 .f32) (ix2 h f) := by
  obtain ⟨e0, e1⟩ := idx5 t
  unfold iblk
  rw [View.read_apply]
  show (V m c main_v10 : FVec Ideal S256x192 .bf16) _ = _
  rw [V_main_v10, truncf_apply]
  congr 1
  funext a
  apply Fin.ext
  match a with
  | ⟨0, _⟩ => show win0_5.index t 0 * 256 + 1 * h.val = h.val; rw [e0]; omega
  | ⟨1, _⟩ => show win0_5.index t 1 * 192 + 1 * f.val = f.val; rw [e1]; omega

theorem blk6 (c : Dev nD) (t : Fin cfg0.N) (h : Fin 192) :
    (iblk m c 6 t : Vec Ideal S1x192 .f32) (ix2 (0 : Fin 1) h) = ((m ((c : Thread nD τ).loc main_arg6)) : FVec Ideal S192 .f32) (ix1 h) := by
  obtain ⟨e0, e1⟩ := idx6 t
  unfold iblk
  rw [View.read_apply]
  show (V m c main_v13 : FVec Ideal S1x192 .f32) _ = _
  rw [V_main_v13]
  refine shapeCast_apply _ _ _ (ix1 h) ?_
  rw [Shape.rowMajor_val_one, Shape.rowMajor_val_two]
  show h.val = (win0_6.index t 0 * 1 + 1 * 0) * 192 + (win0_6.index t 1 * 192 + 1 * h.val)
  rw [e0, e1]; omega

theorem blk7 (c : Dev nD) (t : Fin cfg0.N) (d : Fin 80) (h : Fin 256) :
    (iblk m c 7 t : Vec Ideal S80x256 .bf16) (ix2 d h)
      = ((m ((c : Thread nD τ).loc main_arg7)) : FVec Ideal S264x256 .f32) (ix2 (⟨d.val, by omega⟩ : Fin 264) h) := by
  obtain ⟨e0, e1⟩ := idx7 t
  unfold iblk
  rw [View.read_apply]
  show (V m c main_v7 : FVec Ideal S80x256 .bf16) _ = _
  rw [V_main_v7, truncf_apply]
  refine extractStridedSlice_apply _ _ _ _ _ fun a => ?_
  match a with
  | ⟨0, _⟩ => show d.val = 0 + (win0_7.index t 0 * 80 + 1 * d.val); rw [e0]; omega
  | ⟨1, _⟩ => show h.val = 0 + (win0_7.index t 1 * 256 + 1 * h.val); rw [e1]; omega

theorem blk8 (c : Dev nD) (t : Fin cfg0.N) (d : Fin 184) (h : Fin 256) :
    (iblk m c 8 t : Vec Ideal S184x256 .bf16) (ix2 d h)
      = ((m ((c : Thread nD τ).loc main_arg7)) : FVec Ideal S264x256 .f32) (ix2 (⟨80 + d.val, by omega⟩ : Fin 264) h) := by
  obtain ⟨e0, e1⟩ := idx8 t
  unfold iblk
  rw [View.read_apply]
  show (V m c main_v9 : FVec Ideal S184x256 .bf16) _ = _
  rw [V_main_v9, truncf_apply]
  refine extractStridedSlice_apply _ _ _ _ _ fun a => ?_
  match a with
  | ⟨0, _⟩ => show 80 + d.val = 80 + (win0_8.index t 0 * 184 + 1 * d.val); rw [e0]; omega
  | ⟨1, _⟩ => show h.val = 0 + (win0_8.index t 1 * 256 + 1 * h.val); rw [e1]; omega

theorem blk9 (c : Dev nD) (t : Fin cfg0.N) (h : Fin 256) :
    (iblk m c 9 t : Vec Ideal S1x256 .f32) (ix2 (0 : Fin 1) h) = ((m ((c : Thread nD τ).loc main_arg8)) : FVec Ideal S256 .f32) (ix1 h) := by
  obtain ⟨e0, e1⟩ := idx9 t
  unfold iblk
  rw [View.read_apply]
  show (V m c main_v14 : FVec Ideal S1x256 .f32) _ = _
  rw [V_main_v14]
  refine shapeCast_apply _ _ _ (ix1 h) ?_
  rw [Shape.rowMajor_val_one, Shape.rowMajor_val_two]
  show h.val = (win0_9.index t 0 * 1 + 1 * 0) * 256 + (win0_9.index t 1 * 256 + 1 * h.val)
  rw [e0, e1]; omega

theorem blk10 (c : Dev nD) (t : Fin cfg0.N) (h : Fin 256) (f : Fin 192) :
    (iblk m c 10 t : Vec Ideal S256x192 .bf16) (ix2 h f) = ((m ((c : Thread nD τ).loc main_arg9)) : FVec Ideal S256x192 .f32) (ix2 h f) := by
  obtain ⟨e0, e1⟩ := idx10 t
  unfold iblk
  rw [View.read_apply]
  show (V m c main_v11 : FVec Ideal S256x192 .bf16) _ = _
  rw [V_main_v11, truncf_apply]
  congr 1
  funext a
  apply Fin.ext
  match a with
  | ⟨0, _⟩ => show win0_10.index t 0 * 256 + 1 * h.val = h.val; rw [e0]; omega
  | ⟨1, _⟩ => show win0_10.index t 1 * 192 + 1 * f.val = f.val; rw [e1]; omega

theorem blk11 (c : Dev nD) (t : Fin cfg0.N) (h : Fin 192) :
    (iblk m c 11 t : Vec Ideal S1x192 .f32) (ix2 (0 : Fin 1) h) = ((m ((c : Thread nD τ).loc main_arg10)) : FVec Ideal S192 .f32) (ix1 h) := by
  obtain ⟨e0, e1⟩ := idx11 t
  unfold iblk
  rw [View.read_apply]
  show (V m c main_v15 : FVec Ideal S1x192 .f32) _ = _
  rw [V_main_v15]
  refine shapeCast_apply _ _ _ (ix1 h) ?_
  rw [Shape.rowMajor_val_one, Shape.rowMajor_val_two]
  show h.val = (win0_11.index t 0 * 1 + 1 * 0) * 192 + (win0_11.index t 1 * 192 + 1 * h.val)
  rw [e0, e1]; omega

theorem blk12 (c : Dev nD) (t : Fin cfg0.N) (h : Fin 192) (f : Fin 256) :
    (iblk m c 12 t : Vec Ideal S192x256 .f32) (ix2 h f) = ((m ((c : Thread nD τ).loc main_arg11)) : FVec Ideal S192x256 .f32) (ix2 h f) := by
  obtain ⟨e0, e1⟩ := idx12 t
  unfold iblk
  rw [View.read_apply]
  show (V m c main_arg11 : FVec Ideal S192x256 .f32) _ = _
  rw [V_main_arg11]
  congr 1
  funext a
  apply Fin.ext
  match a with
  | ⟨0, _⟩ => show win0_12.index t 0 * 192 + 1 * h.val = h.val; rw [e0]; omega
  | ⟨1, _⟩ => show win0_12.index t 1 * 256 + 1 * f.val = f.val; rw [e1]; omega

theorem blk13 (c : Dev nD) (t : Fin cfg0.N) (h : Fin 256) :
    (iblk m c 13 t : Vec Ideal S1x256 .f32) (ix2 (0 : Fin 1) h) = ((m ((c : Thread nD τ).loc main_arg12)) : FVec Ideal S256 .f32) (ix1 h) := by
  obtain ⟨e0, e1⟩ := idx13 t
  unfold iblk
  rw [View.read_apply]
  show (V m c main_v16 : FVec Ideal S1x256 .f32) _ = _
  rw [V_main_v16]
  refine shapeCast_apply _ _ _ (ix1 h) ?_
  rw [Shape.rowMajor_val_one, Shape.rowMajor_val_two]
  show h.val = (win0_13.index t 0 * 1 + 1 * 0) * 256 + (win0_13.index t 1 * 256 + 1 * h.val)
  rw [e0, e1]; omega

theorem blk14 (c : Dev nD) (t : Fin cfg0.N) (h : Fin 256) (f : Fin 1) :
    (iblk m c 14 t : Vec Ideal S256x1 .f32) (ix2 h f) = ((m ((c : Thread nD τ).loc main_arg13)) : FVec Ideal S256x1 .f32) (ix2 h f) := by
  obtain ⟨e0, e1⟩ := idx14 t
  unfold iblk
  rw [View.read_apply]
  show (V m c main_arg13 : FVec Ideal S256x1 .f32) _ = _
  rw [V_main_arg13]
  congr 1
  funext a
  apply Fin.ext
  match a with
  | ⟨0, _⟩ => show win0_14.index t 0 * 256 + 1 * h.val = h.val; rw [e0]; omega
  | ⟨1, _⟩ => show win0_14.index t 1 * 1 + 1 * f.val = f.val; rw [e1]; omega

theorem blk15 (c : Dev nD) (t : Fin cfg0.N) (h : Fin 1) :
    (iblk m c 15 t : Vec Ideal S1x1 .f32) (ix2 (0 : Fin 1) h) = ((m ((c : Thread nD τ).loc main_arg14)) : FVec Ideal S1 .f32) (ix1 h) := by
  obtain ⟨e0, e1⟩ := idx15 t
  unfold iblk
  rw [View.read_apply]
  show (V m c main_v17 : FVec Ideal S1x1 .f32) _ = _
  rw [V_main_v17]
  refine shapeCast_apply _ _ _ (ix1 h) ?_
  rw [Shape.rowMajor_val_one, Shape.rowMajor_val_two]
  show h.val = (win0_15.index t 0 * 1 + 1 * 0) * 1 + (win0_15.index t 1 * 1 + 1 * h.val)
  rw [e0, e1]; omega

theorem blk16 (c : Dev nD) (t : Fin cfg0.N) (h : Fin 192) (f : Fin 256) :
    (iblk m c 16 t : Vec Ideal S192x256 .f32) (ix2 h f) = ((m ((c : Thread nD τ).loc main_arg15)) : FVec Ideal S192x256 .f32) (ix2 h f) := by
  obtain ⟨e0, e1⟩ := idx16 t
  unfold iblk
  rw [View.read_apply]
  show (V m c main_arg15 : FVec Ideal S192x256 .f32) _ = _
  rw [V_main_arg15]
  congr 1
  funext a
  apply Fin.ext
  match a with
  | ⟨0, _⟩ => show win0_16.index t 0 * 192 + 1 * h.val = h.val; rw [e0]; omega
  | ⟨1, _⟩ => show win0_16.index t 1 * 256 + 1 * f.val = f.val; rw [e1]; omega

theorem blk17 (c : Dev nD) (t : Fin cfg0.N) (h : Fin 256) :
    (iblk m c 17 t : Vec Ideal S1x256 .f32) (ix2 (0 : Fin 1) h) = ((m ((c : Thread nD τ).loc main_arg16)) : FVec Ideal S256 .f32) (ix1 h) := by
  obtain ⟨e0, e1⟩ := idx17 t
  unfold iblk
  rw [View.read_apply]
  show (V m c main_v18 : FVec Ideal S1x256 .f32) _ = _
  rw [V_main_v18]
  refine shapeCast_apply _ _ _ (ix1 h) ?_
  rw [Shape.rowMajor_val_one, Shape.rowMajor_val_two]
  show h.val = (win0_17.index t 0 * 1 + 1 * 0) * 256 + (win0_17.index t 1 * 256 + 1 * h.val)
  rw [e0, e1]; omega

theorem blk18 (c : Dev nD) (t : Fin cfg0.N) (h : Fin 256) (f : Fin 1) :
    (iblk m c 18 t : Vec Ideal S256x1 .f32) (ix2 h f) = ((m ((c : Thread nD τ).loc main_arg17)) : FVec Ideal S256x1 .f32) (ix2 h f) := by
  obtain ⟨e0, e1⟩ := idx18 t
  unfold iblk
  rw [View.read_apply]
  show (V m c main_arg17 : FVec Ideal S256x1 .f32) _ = _
  rw [V_main_arg17]
  congr 1
  funext a
  apply Fin.ext
  match a with
  | ⟨0, _⟩ => show win0_18.index t 0 * 256 + 1 * h.val = h.val; rw [e0]; omega
  | ⟨1, _⟩ => show win0_18.index t 1 * 1 + 1 * f.val = f.val; rw [e1]; omega

theorem blk19 (c : Dev nD) (t : Fin cfg0.N) (h : Fin 1) :
    (iblk m c 19 t : Vec Ideal S1x1 .f32) (ix2 (0 : Fin 1) h) = ((m ((c : Thread nD τ).loc main_arg18)) : FVec Ideal S1 .f32) (ix1 h) := by
  obtain ⟨e0, e1⟩ := idx19 t
  unfold iblk
  rw [View.read_apply]
  show (V m c main_v19 : FVec Ideal S1x1 .f32) _ = _
  rw [V_main_v19]
  refine shapeCast_apply _ _ _ (ix1 h) ?_
  rw [Shape.rowMajor_val_one, Shape.rowMajor_val_two]
  show h.val = (win0_19.index t 0 * 1 + 1 * 0) * 1 + (win0_19.index t 1 * 1 + 1 * h.val)
  rw [e0, e1]; omega

end Cert.KernelIdeal.Hand

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.KernelDots.lean ====
/-
  The kernel's five matrix products, each read at one entry.

  Every product of the body contracts the left operand's second axis with the right operand's first, has no batch
  axis, and accumulates into the zero matrix; so its entry (p, q) is the sum over k of left (p, k) times right (k, q).
  For each of the five dimension records the four facts about where the operand indices sit are read off the record
  (the left index takes the result's row and the contraction position, the right one the contraction position and the
  result's column), and the entry formula follows from the general one.
-/
import proofs.«156536_j73959336837233_2_alg».proof.Proof.Gen.KernelIdeal
import proofs.«156536_j73959336837233_2_alg».proof.Proof.LibMatmulAt

noncomputable section

open scoped BigOperators

namespace Cert.KernelIdeal.Dots

open Cert.KernelIdeal Idealize.ShloMosaic Idealize.ShloMosaic.ValueIdx

/-! ### the body-and-action rows [1024, 80] by the first layer's first 80 weight rows [80, 256] -/

theorem mm_body_l0 (i : S1024x256.Idx) (q : dot_S1024x80_S80x256_S1024x256_1_0_0_1_n_n.contr.Idx) : (dot_S1024x80_S80x256_S1024x256_1_0_0_1_n_n.lhsIdx i q 0).val = (i 0).val := by
  unfold DotDims.lhsIdx
  rw [dif_neg (show ¬(0 : Fin S1024x80.rank) ∈ dot_S1024x80_S80x256_S1024x256_1_0_0_1_n_n.lhsBatch by decide), dif_pos (show (0 : Fin S1024x80.rank) ∈ dot_S1024x80_S80x256_S1024x256_1_0_0_1_n_n.lhsNonContracting by decide)]
  rfl
theorem mm_body_l1 (i : S1024x256.Idx) (q : dot_S1024x80_S80x256_S1024x256_1_0_0_1_n_n.contr.Idx) : (dot_S1024x80_S80x256_S1024x256_1_0_0_1_n_n.lhsIdx i q 1).val = (q ⟨0, by decide⟩).val :=
  dot_S1024x80_S80x256_S1024x256_1_0_0_1_n_n.lhsIdx_val_of_single rfl i q
theorem mm_body_r0 (i : S1024x256.Idx) (q : dot_S1024x80_S80x256_S1024x256_1_0_0_1_n_n.contr.Idx) : (dot_S1024x80_S80x256_S1024x256_1_0_0_1_n_n.rhsIdx i q 0).val = (q ⟨0, by decide⟩).val :=
  dot_S1024x80_S80x256_S1024x256_1_0_0_1_n_n.rhsIdx_val_of_single rfl i q
theorem mm_body_r1 (i : S1024x256.Idx) (q : dot_S1024x80_S80x256_S1024x256_1_0_0_1_n_n.contr.Idx) : (dot_S1024x80_S80x256_S1024x256_1_0_0_1_n_n.rhsIdx i q 1).val = (i 1).val := by
  unfold DotDims.rhsIdx
  rw [dif_neg (show ¬(1 : Fin S80x256.rank) ∈ dot_S1024x80_S80x256_S1024x256_1_0_0_1_n_n.rhsBatch by decide), dif_pos (show (1 : Fin S80x256.rank) ∈ dot_S1024x80_S80x256_S1024x256_1_0_0_1_n_n.rhsNonContracting by decide)]
  rfl

/-- Entry (p, q) of the body-and-action rows [1024, 80] by the first layer's first 80 weight rows [80, 256], accumulated into zero. -/
theorem mm_body {φ₁ φ₂ : FTy} (l : FVec Ideal S1024x80 φ₁) (r : FVec Ideal S80x256 φ₂) (p : Fin 1024) (q : Fin 256) :
    matmul dot_S1024x80_S80x256_S1024x256_1_0_0_1_n_n none l r (constant S1024x256 .f32 0x00000000#32) (ix2 p q) = ∑ k : Fin 80, l (ix2 p k) * r (ix2 k q) :=
  MatmulAt.matmul_zero_ix2 dot_S1024x80_S80x256_S1024x256_1_0_0_1_n_n rfl rfl mm_body_l0 mm_body_l1 mm_body_r0 mm_body_r1 none l r p q

/-! ### the flattened context rows [10240, 184] by the first layer's last 184 weight rows [184, 256] -/

theorem mm_ctx_l0 (i : S10240x256.Idx) (q : dot_S10240x184_S184x256_S10240x256_1_0_0_1_n_n.contr.Idx) : (dot_S10240x184_S184x256_S10240x256_1_0_0_1_n_n.lhsIdx i q 0).val = (i 0).val := by
  unfold DotDims.lhsIdx
  rw [dif_neg (show ¬(0 : Fin S10240x184.rank) ∈ dot_S10240x184_S184x256_S10240x256_1_0_0_1_n_n.lhsBatch by decide), dif_pos (show (0 : Fin S10240x184.rank) ∈ dot_S10240x184_S184x256_S10240x256_1_0_0_1_n_n.lhsNonContracting by decide)]
  rfl
theorem mm_ctx_l1 (i : S10240x256.Idx) (q : dot_S10240x184_S184x256_S10240x256_1_0_0_1_n_n.contr.Idx) : (dot_S10240x184_S184x256_S10240x256_1_0_0_1_n_n.lhsIdx i q 1).val = (q ⟨0, by decide⟩).val :=
  dot_S10240x184_S184x256_S10240x256_1_0_0_1_n_n.lhsIdx_val_of_single rfl i q
theorem mm_ctx_r0 (i : S10240x256.Idx) (q : dot_S10240x184_S184x256_S10240x256_1_0_0_1_n_n.contr.Idx) : (dot_S10240x184_S184x256_S10240x256_1_0_0_1_n_n.rhsIdx i q 0).val = (q ⟨0, by decide⟩).val :=
  dot_S10240x184_S184x256_S10240x256_1_0_0_1_n_n.rhsIdx_val_of_single rfl i q
theorem mm_ctx_r1 (i : S10240x256.Idx) (q : dot_S10240x184_S184x256_S10240x256_1_0_0_1_n_n.contr.Idx) : (dot_S10240x184_S184x256_S10240x256_1_0_0_1_n_n.rhsIdx i q 1).val = (i 1).val := by
  unfold DotDims.rhsIdx
  rw [dif_neg (show ¬(1 : Fin S184x256.rank) ∈ dot_S10240x184_S184x256_S10240x256_1_0_0_1_n_n.rhsBatch by decide), dif_pos (show (1 : Fin S184x256.rank) ∈ dot_S10240x184_S184x256_S10240x256_1_0_0_1_n_n.rhsNonContracting by decide)]
  rfl

/-- Entry (p, q) of the flattened context rows [10240, 184] by the first layer's last 184 weight rows [184, 256], accumulated into zero. -/
theorem mm_ctx {φ₁ φ₂ : FTy} (l : FVec Ideal S10240x184 φ₁) (r : FVec Ideal S184x256 φ₂) (p : Fin 10240) (q : Fin 256) :
    matmul dot_S10240x184_S184x256_S10240x256_1_0_0_1_n_n none l r (constant S10240x256 .f32 0x00000000#32) (ix2 p q) = ∑ k : Fin 184, l (ix2 p k) * r (ix2 k q) :=
  MatmulAt.matmul_zero_ix2 dot_S10240x184_S184x256_S10240x256_1_0_0_1_n_n rfl rfl mm_ctx_l0 mm_ctx_l1 mm_ctx_r0 mm_ctx_r1 none l r p q

/-! ### the flattened hidden rows [10240, 256] by the second layer's weights [256, 192] -/

theorem mm_feat_l0 (i : S10240x192.Idx) (q : dot_S10240x256_S256x192_S10240x192_1_0_0_1_n_n.contr.Idx) : (dot_S10240x256_S256x192_S10240x192_1_0_0_1_n_n.lhsIdx i q 0).val = (i 0).val := by
  unfold DotDims.lhsIdx
  rw [dif_neg (show ¬(0 : Fin S10240x256.rank) ∈ dot_S10240x256_S256x192_S10240x192_1_0_0_1_n_n.lhsBatch by decide), dif_pos (show (0 : Fin S10240x256.rank) ∈ dot_S10240x256_S256x192_S10240x192_1_0_0_1_n_n.lhsNonContracting by decide)]
  rfl
theorem mm_feat_l1 (i : S10240x192.Idx) (q : dot_S10240x256_S256x192_S10240x192_1_0_0_1_n_n.contr.Idx) : (dot_S10240x256_S256x192_S10240x192_1_0_0_1_n_n.lhsIdx i q 1).val = (q ⟨0, by decide⟩).val :=
  dot_S10240x256_S256x192_S10240x192_1_0_0_1_n_n.lhsIdx_val_of_single rfl i q
theorem mm_feat_r0 (i : S10240x192.Idx) (q : dot_S10240x256_S256x192_S10240x192_1_0_0_1_n_n.contr.Idx) : (dot_S10240x256_S256x192_S10240x192_1_0_0_1_n_n.rhsIdx i q 0).val = (q ⟨0, by decide⟩).val :=
  dot_S10240x256_S256x192_S10240x192_1_0_0_1_n_n.rhsIdx_val_of_single rfl i q
theorem mm_feat_r1 (i : S10240x192.Idx) (q : dot_S10240x256_S256x192_S10240x192_1_0_0_1_n_n.contr.Idx) : (dot_S10240x256_S256x192_S10240x192_1_0_0_1_n_n.rhsIdx i q 1).val = (i 1).val := by
  unfold DotDims.rhsIdx
  rw [dif_neg (show ¬(1 : Fin S256x192.rank) ∈ dot_S10240x256_S256x192_S10240x192_1_0_0_1_n_n.rhsBatch by decide), dif_pos (show (1 : Fin S256x192.rank) ∈ dot_S10240x256_S256x192_S10240x192_1_0_0_1_n_n.rhsNonContracting by decide)]
  rfl

/-- Entry (p, q) of the flattened hidden rows [10240, 256] by the second layer's weights [256, 192], accumulated into zero. -/
theorem mm_feat {φ₁ φ₂ : FTy} (l : FVec Ideal S10240x256 φ₁) (r : FVec Ideal S256x192 φ₂) (p : Fin 10240) (q : Fin 192) :
    matmul dot_S10240x256_S256x192_S10240x192_1_0_0_1_n_n none l r (constant S10240x192 .f32 0x00000000#32) (ix2 p q) = ∑ k : Fin 256, l (ix2 p k) * r (ix2 k q) :=
  MatmulAt.matmul_zero_ix2 dot_S10240x256_S256x192_S10240x192_1_0_0_1_n_n rfl rfl mm_feat_l0 mm_feat_l1 mm_feat_r0 mm_feat_r1 none l r p q

/-! ### the pooled rows [1024, 192] by the read-out's first weights [192, 256] -/

theorem mm_rho1_l0 (i : S1024x256.Idx) (q : dot_S1024x192_S192x256_S1024x256_1_0_0_1_n_n.contr.Idx) : (dot_S1024x192_S192x256_S1024x256_1_0_0_1_n_n.lhsIdx i q 0).val = (i 0).val := by
  unfold DotDims.lhsIdx
  rw [dif_neg (show ¬(0 : Fin S1024x192.rank) ∈ dot_S1024x192_S192x256_S1024x256_1_0_0_1_n_n.lhsBatch by decide), dif_pos (show (0 : Fin S1024x192.rank) ∈ dot_S1024x192_S192x256_S1024x256_1_0_0_1_n_n.lhsNonContracting by decide)]
  rfl
theorem mm_rho1_l1 (i : S1024x256.Idx) (q : dot_S1024x192_S192x256_S1024x256_1_0_0_1_n_n.contr.Idx) : (dot_S1024x192_S192x256_S1024x256_1_0_0_1_n_n.lhsIdx i q 1).val = (q ⟨0, by decide⟩).val :=
  dot_S1024x192_S192x256_S1024x256_1_0_0_1_n_n.lhsIdx_val_of_single rfl i q
theorem mm_rho1_r0 (i : S1024x256.Idx) (q : dot_S1024x192_S192x256_S1024x256_1_0_0_1_n_n.contr.Idx) : (dot_S1024x192_S192x256_S1024x256_1_0_0_1_n_n.rhsIdx i q 0).val = (q ⟨0, by decide⟩).val :=
  dot_S1024x192_S192x256_S1024x256_1_0_0_1_n_n.rhsIdx_val_of_single rfl i q
theorem mm_rho1_r1 (i : S1024x256.Idx) (q : dot_S1024x192_S192x256_S1024x256_1_0_0_1_n_n.contr.Idx) : (dot_S1024x192_S192x256_S1024x256_1_0_0_1_n_n.rhsIdx i q 1).val = (i 1).val := by
  unfold DotDims.rhsIdx
  rw [dif_neg (show ¬(1 : Fin S192x256.rank) ∈ dot_S1024x192_S192x256_S1024x256_1_0_0_1_n_n.rhsBatch by decide), dif_pos (show (1 : Fin S192x256.rank) ∈ dot_S1024x192_S192x256_S1024x256_1_0_0_1_n_n.rhsNonContracting by decide)]
  rfl

/-- Entry (p, q) of the pooled rows [1024, 192] by the read-out's first weights [192, 256], accumulated into zero. -/
theorem mm_rho1 {φ₁ φ₂ : FTy} (l : FVec Ideal S1024x192 φ₁) (r : FVec Ideal S192x256 φ₂) (p : Fin 1024) (q : Fin 256) :
    matmul dot_S1024x192_S192x256_S1024x256_1_0_0_1_n_n none l r (constant S1024x256 .f32 0x00000000#32) (ix2 p q) = ∑ k : Fin 192, l (ix2 p k) * r (ix2 k q) :=
  MatmulAt.matmul_zero_ix2 dot_S1024x192_S192x256_S1024x256_1_0_0_1_n_n rfl rfl mm_rho1_l0 mm_rho1_l1 mm_rho1_r0 mm_rho1_r1 none l r p q

/-! ### the read-out's hidden rows [1024, 256] by its last weights [256, 1] -/

theorem mm_rho2_l0 (i : S1024x1.Idx) (q : dot_S1024x256_S256x1_S1024x1_1_0_0_1_n_n.contr.Idx) : (dot_S1024x256_S256x1_S1024x1_1_0_0_1_n_n.lhsIdx i q 0).val = (i 0).val := by
  unfold DotDims.lhsIdx
  rw [dif_neg (show ¬(0 : Fin S1024x256.rank) ∈ dot_S1024x256_S256x1_S1024x1_1_0_0_1_n_n.lhsBatch by decide), dif_pos (show (0 : Fin S1024x256.rank) ∈ dot_S1024x256_S256x1_S1024x1_1_0_0_1_n_n.lhsNonContracting by decide)]
  rfl
theorem mm_rho2_l1 (i : S1024x1.Idx) (q : dot_S1024x256_S256x1_S1024x1_1_0_0_1_n_n.contr.Idx) : (dot_S1024x256_S256x1_S1024x1_1_0_0_1_n_n.lhsIdx i q 1).val = (q ⟨0, by decide⟩).val :=
  dot_S1024x256_S256x1_S1024x1_1_0_0_1_n_n.lhsIdx_val_of_single rfl i q
theorem mm_rho2_r0 (i : S1024x1.Idx) (q : dot_S1024x256_S256x1_S1024x1_1_0_0_1_n_n.contr.Idx) : (dot_S1024x256_S256x1_S1024x1_1_0_0_1_n_n.rhsIdx i q 0).val = (q ⟨0, by decide⟩).val :=
  dot_S1024x256_S256x1_S1024x1_1_0_0_1_n_n.rhsIdx_val_of_single rfl i q
theorem mm_rho2_r1 (i : S1024x1.Idx) (q : dot_S1024x256_S256x1_S1024x1_1_0_0_1_n_n.contr.Idx) : (dot_S1024x256_S256x1_S1024x1_1_0_0_1_n_n.rhsIdx i q 1).val = (i 1).val := by
  unfold DotDims.rhsIdx
  rw [dif_neg (show ¬(1 : Fin S256x1.rank) ∈ dot_S1024x256_S256x1_S1024x1_1_0_0_1_n_n.rhsBatch by decide), dif_pos (show (1 : Fin S256x1.rank) ∈ dot_S1024x256_S256x1_S1024x1_1_0_0_1_n_n.rhsNonContracting by decide)]
  rfl

/-- Entry (p, q) of the read-out's hidden rows [1024, 256] by its last weights [256, 1], accumulated into zero. -/
theorem mm_rho2 {φ₁ φ₂ : FTy} (l : FVec Ideal S1024x256 φ₁) (r : FVec Ideal S256x1 φ₂) (p : Fin 1024) (q : Fin 1) :
    matmul dot_S1024x256_S256x1_S1024x1_1_0_0_1_n_n none l r (constant S1024x1 .f32 0x00000000#32) (ix2 p q) = ∑ k : Fin 256, l (ix2 p k) * r (ix2 k q) :=
  MatmulAt.matmul_zero_ix2 dot_S1024x256_S256x1_S1024x1_1_0_0_1_n_n rfl rfl mm_rho2_l0 mm_rho2_l1 mm_rho2_r0 mm_rho2_r1 none l r p q

end Cert.KernelIdeal.Dots

end
-- ==== Proof.LibObjectAxis.lean ====
/-
  Layout reads around a pair of axes flattened into one, a middle unit axis, and a vector spread over two leading axes.

  A rank-3 array [a, b, c] and the matrix [a * b, c] that lists its (p, o) pairs row by row hold the same entries: row
  p * b + o of the matrix is the array's fibre at (p, o). Read at an entry:

  `shapeCast_abc_nc_apply`      [a, b, c] cast to [n, c] (n = a * b) reads, at (p * b + o, r), the operand at (p, o, r);
  `shapeCast_nc_abc_apply`      [n, c] cast to [a, b, c] reads, at (p, o, r), the operand at (p * b + o, r);
  `shapeCast_ac_a1c_apply`      [a, c] cast to [a, 1, c] reads, at (p, 0, r), the operand at (p, r);
  `broadcastTo_11c_abc_apply`   [1, 1, c] broadcast to [a, b, c] reads, at (p, q, r), the operand at (0, 0, r);
  `multiReduction_add_mid`      the sum over the middle axis of [a, b, c], at the ideal instance, read at (p, r), is the sum
                                over o of the operand at (p, o, r) (the accumulator pattern is the printed zero word).
-/
import Idealize.ShloMosaic.Lib.Pipeline.Value
import Idealize.ShloMosaic.Lib.ValueIdx
import Idealize.ShloMosaic.PureOps.Ideal.Laws

noncomputable section

open scoped BigOperators

namespace Cert.LibObjectAxis

open Idealize.ShloMosaic Idealize.ShloMosaic.ValueIdx

variable {α : Type}

/-- An [a, b, c] array cast to [n, c] reads, at row p * b + o and column r, the operand at (p, o, r): both sit at
    row-major position (p * b + o) * c + r. -/
theorem shapeCast_abc_nc_apply {a b c n : ℕ} (x : (⟨3, ![a, b, c]⟩ : Shape).Idx → α)
    (h : (⟨3, ![a, b, c]⟩ : Shape).ShapeCasts ⟨2, ![n, c]⟩) (p : Fin a) (o : Fin b) (r : Fin c)
    (hlt : p.val * b + o.val < n) :
    shapeCast ⟨2, ![n, c]⟩ x h (ix2 (⟨p.val * b + o.val, hlt⟩ : Fin n) r) = x (ix3 p o r) :=
  shapeCast_apply x h _ _ (by
    rw [Shape.rowMajor_val_three, Shape.rowMajor_val_two]
    rfl)

/-- An [n, c] matrix cast to [a, b, c] reads, at (p, o, r), the operand at row p * b + o and column r. -/
theorem shapeCast_nc_abc_apply {a b c n : ℕ} (x : (⟨2, ![n, c]⟩ : Shape).Idx → α)
    (h : (⟨2, ![n, c]⟩ : Shape).ShapeCasts ⟨3, ![a, b, c]⟩) (p : Fin a) (o : Fin b) (r : Fin c)
    (hlt : p.val * b + o.val < n) :
    shapeCast ⟨3, ![a, b, c]⟩ x h (ix3 p o r) = x (ix2 (⟨p.val * b + o.val, hlt⟩ : Fin n) r) :=
  shapeCast_apply x h _ _ (by
    rw [Shape.rowMajor_val_three, Shape.rowMajor_val_two]
    rfl)

/-- An [a, c] matrix cast to [a, 1, c] reads, at (p, u, r), the operand at (p, r). -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-- A [1, 1, c] array broadcast to [a, b, c] reads, at (p, q, r), the operand at (0, 0, r). -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- The sum over the middle axis of an [a, b, c] array of extended reals, read at (p, r): the sum over o of the
    operand at (p, o, r). -/
theorem multiReduction_add_mid {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (p : Fin a) (r : Fin c) :
    multiReduction .add [1] ⟨2, ![a, c]⟩ src 0x00000000#32 h hφ hacc (ix2 p r) = ∑ o : Fin b, src (ix3 p o r) :=
  (Ideal.multiReduction_add_single src 0x00000000#32 h hφ hacc (ix2 p r)).trans
    (Finset.sum_congr rfl fun k _ => congrArg src (funext fun ax => Fin.ext (by
      match ax with
      | ⟨0, _⟩ => rfl
      | ⟨1, _⟩ => rfl
      | ⟨2, _⟩ => rfl)))

end Cert.LibObjectAxis

end
-- ==== Proof.LibBroadcastRank3.lean ====
/-
  A rank-3 array broadcast along one axis, read at one entry.

  Two companions of the library's row form for matrices: an [a, 1, c] array broadcast along its middle axis to
  [a, b, c] reads, at (p, q, r), the operand at (p, 0, r); a [1, b, c] array broadcast along its leading axis to
  [a, b, c] reads the operand at (0, q, r). (When an extent other than the broadcast one is itself 1 the coordinate there
  is 0 on both sides.)
-/
import Idealize.ShloMosaic.Lib.Pipeline.Value
import Idealize.ShloMosaic.Lib.ValueIdx

namespace Cert.LibBroadcastRank3

open Idealize.ShloMosaic Idealize.ShloMosaic.ValueIdx

/-- An [a, 1, c] array broadcast to [a, b, c] reads, at (p, q, r), the operand at (p, 0, r). -/
theorem broadcastTo_a1c_abc_apply {α : Type} {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A [1, b, c] array broadcast to [a, b, c] reads, at (p, q, r), the operand at (0, q, r). -/
theorem broadcastTo_1bc_abc_apply {α : Type} {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

end Cert.LibBroadcastRank3
-- ==== Proof.Critic.lean ====
/-
  The twin-critic read-out of ONE batch row, as a function of that row's data, on the extended reals.

  A row carries a body-and-action vector `ba` of 80 features and, for each of 10 objects, a context vector `cx o`
  of 184 features. One critic is two small networks:

    per object   hidden o h  = relu (sum_d cx o d * w1 (80 + d) h  +  sum_d ba d * w1 d h  +  b1 h)      (256 units)
                 feature o f = relu (sum_h hidden o h * w2 h f + b2 f)                                    (192 units)
    pooled       pooled f    = sum_o feature o f
    read-out     rhoHidden h = relu (sum_f pooled f * r1 f h + rb1 h)                                     (256 units)
                 q           = sum_h rhoHidden h * r2 h + rb2

  with relu x = max x 0. The first layer is written with its contraction already SPLIT: the 264 input features of an
  object are the row's 80 body-and-action features followed by the object's 184 context features, and a sum over the
  264 positions is the sum over the first 80 plus the sum over the last 184 (`sum_split`; addition of extended reals is
  commutative and associative, so no finiteness is needed). `hidden_concat` is that law at the first layer: contracting
  the concatenated vector `xcat` against the whole 264-row weight matrix gives the split form.
-/
import Mathlib.Data.EReal.Basic
import Mathlib.Algebra.BigOperators.Fin

noncomputable section

open scoped BigOperators

namespace Cert.Critic

/-- A sum over 264 positions is the sum over the first 80 plus the sum over the last 184. -/
theorem sum_split {M : Type*} [AddCommMonoid M] (f : Fin 264 → M) :
    ∑ k : Fin 264, f k = ∑ d : Fin 80, f ⟨d.val, by omega⟩ + ∑ d : Fin 184, f ⟨80 + d.val, by omega⟩ :=
  Fin.sum_univ_add (a := 80) (b := 184) f

section
variable (ba : Fin 80 → EReal) (cx : Fin 10 → Fin 184 → EReal)
  (w1 : Fin 264 → Fin 256 → EReal) (b1 : Fin 256 → EReal)
  (w2 : Fin 256 → Fin 192 → EReal) (b2 : Fin 192 → EReal)
  (r1 : Fin 192 → Fin 256 → EReal) (rb1 : Fin 256 → EReal)
  (r2 : Fin 256 → EReal) (rb2 : EReal)

/-- The first layer at object `o`, unit `h`: the context part of the contraction, plus the body-and-action part
    (which does not depend on the object), plus the bias, clamped at zero. -/
def hidden (o : Fin 10) (h : Fin 256) : EReal :=
  max ((∑ d : Fin 184, cx o d * w1 ⟨80 + d.val, by omega⟩ h + ∑ d : Fin 80, ba d * w1 ⟨d.val, by omega⟩ h) + b1 h) 0

/-- The second layer at object `o`, unit `f`. -/
def feature (o : Fin 10) (f : Fin 192) : EReal :=
  max ((∑ h : Fin 256, hidden ba cx w1 b1 o h * w2 h f) + b2 f) 0

/-- The objects' features summed. -/
def pooled (f : Fin 192) : EReal := ∑ o : Fin 10, feature ba cx w1 b1 w2 b2 o f

/-- The read-out network's hidden layer. -/
def rhoHidden (h : Fin 256) : EReal :=
  max ((∑ f : Fin 192, pooled ba cx w1 b1 w2 b2 f * r1 f h) + rb1 h) 0

/-- The row's value. -/
def q : EReal := (∑ h : Fin 256, rhoHidden ba cx w1 b1 w2 b2 r1 rb1 h * r2 h) + rb2

/-- An object's 264 input features: the row's 80 body-and-action features, then the object's 184 context features. -/
def xcat (o : Fin 10) (k : Fin 264) : EReal :=
  if h : k.val < 80 then ba ⟨k.val, h⟩ else cx o ⟨k.val - 80, by omega⟩

/-- The first layer computed from the concatenated features against the whole weight matrix is the split form. -/
theorem hidden_concat (o : Fin 10) (h : Fin 256) :
    max ((∑ k : Fin 264, xcat ba cx o k * w1 k h) + b1 h) 0 = hidden ba cx w1 b1 o h := by
  have e1 : ∀ d : Fin 80, xcat ba cx o ⟨d.val, by omega⟩ = ba d := fun d => by
    unfold xcat; rw [dif_pos d.isLt]
  have e2 : ∀ d : Fin 184, xcat ba cx o ⟨80 + d.val, by omega⟩ = cx o d := fun d => by
    unfold xcat
    rw [dif_neg (show ¬ (80 + d.val < 80) by omega)]
    exact congrArg (cx o) (Fin.ext (by show 80 + d.val - 80 = d.val; omega))
  unfold hidden
  rw [sum_split]
  simp only [e1, e2]
  rw [add_comm (∑ d : Fin 80, _)]

end

end Cert.Critic

end
-- ==== Proof.KernelStages.lean ====
/-
  The kernel's body at one entry of its output block.

  One grid point holds 1024 batch rows. The body computes, for each twin, the critic of `Critic.lean` on every row of
  the block: the objects' axis is flattened into the rows (row p, object o of the block is row p * 10 + o of a
  [10240, _] matrix) for the two per-object layers, un-flattened and summed over the objects, and the read-out network
  runs on the pooled [1024, 192] block. Formats changes are the identity on the extended reals, each matrix product is
  a sum over its contracted axis (`KernelDots.lean`), a broadcast bias reads its one row, and the clamp is `max _ 0`.

  `hid_apply`   the first layer, at flattened row p * 10 + o and unit h;
  `pool_apply`  the second layer and the sum over the objects, at row p and unit f, over ANY flattened hidden block;
  `rho_apply`   the read-out network at row p, over ANY pooled block;
  `net_apply`   the three composed: the stored value at row p is `Critic.q` of row p's data;
  `pay_a`, `pay_b`  the two stored payloads of the body are this composition (they cut the same operations at different
                 places; the operations are the same).
-/
import proofs.«156536_j73959336837233_2_alg».proof.Proof.Gen.KernelIdeal.Skeleton
import proofs.«156536_j73959336837233_2_alg».proof.Proof.KernelDots
import proofs.«156536_j73959336837233_2_alg».proof.Proof.LibObjectAxis
import proofs.«156536_j73959336837233_2_alg».proof.Proof.LibBroadcastRank3
import proofs.«156536_j73959336837233_2_alg».proof.Proof.Critic
import Idealize.ShloMosaic.Lib.ValueLayout

noncomputable section

open scoped BigOperators

namespace Cert.KernelIdeal.Stage

open Cert.KernelIdeal Cert.KernelIdeal.Gen Idealize.ShloMosaic Idealize.ShloMosaic.ValueIdx Idealize.SL.Sem

/-- The first layer over a block: the loaded rows [1024, 80], the loaded contexts [1024, 10, 184], the two parts of
    the first weight matrix and the bias row; the result is the flattened [10240, 256] hidden block. -/
abbrev hid (x0 : Vec Ideal S1024x80 .f32) (x1 : Vec Ideal S1024x10x184 .f32) (wb : Vec Ideal S80x256 .bf16)
    (wc : Vec Ideal S184x256 .bf16) (b1 : Vec Ideal S1x256 .f32) : FVec Ideal S10240x256 .bf16 :=
  k0_pay6 (F := Ideal) (k0_pay2 x0) (k0_pay3 x1) wb wc b1

/-- The first layer at flattened row p * 10 + o, unit h: the context part of the contraction plus the
    body-and-action part plus the bias, clamped at zero. -/
theorem hid_apply (x0 : Vec Ideal S1024x80 .f32) (x1 : Vec Ideal S1024x10x184 .f32) (wb : Vec Ideal S80x256 .bf16)
    (wc : Vec Ideal S184x256 .bf16) (b1 : Vec Ideal S1x256 .f32) (p : Fin 1024) (o : Fin 10) (h : Fin 256)
    (hlt : p.val * 10 + o.val < 10240) :
    hid x0 x1 wb wc b1 (ix2 (⟨p.val * 10 + o.val, hlt⟩ : Fin 10240) h)
      = max ((∑ d : Fin 184, x1 (ix3 p o d) * wc (ix2 d h) + ∑ d : Fin 80, x0 (ix2 p d) * wb (ix2 d h))
          + b1 (ix2 (0 : Fin 1) h)) 0 := by
  unfold hid k0_pay6 k0_pay2 k0_pay3
  dsimp only
  simp (disch := omega) only [LibObjectAxis.shapeCast_abc_nc_apply, LibObjectAxis.shapeCast_nc_abc_apply,
    LibObjectAxis.broadcastTo_11c_abc_apply, LibBroadcastRank3.broadcastTo_a1c_abc_apply, shapeCast_self, truncf_apply,
    maximumf_apply, addf_apply, broadcast_apply, Dots.mm_ctx, Dots.mm_body, Ideal.ofBits_def, Ideal.ofBits_zero_f32]
  simp only [Fin.val_zero, Nat.mul_one, Nat.zero_mul, Nat.add_zero, Fin.eta, Fin.mk_zero]

/-- The second layer and the pooling, on a flattened hidden block: the product with the second weights, the bias row,
    the clamp, the objects' axis restored and summed. -/
def pool (H : FVec Ideal S10240x256 .bf16) (w2 : Vec Ideal S256x192 .bf16) (b2 : Vec Ideal S1x192 .f32) :
    FVec Ideal S1024x192 .f32 :=
  have w2' : FVec Ideal S256x192 .bf16 := shapeCast S256x192 w2 shapeCasts_S256x192_S256x192
  have b2' : FVec Ideal S1x192 .f32 := shapeCast S1x192 b2 shapeCasts_S1x192_S1x192
  have prod : FVec Ideal S10240x192 .f32 :=
    matmul dot_S10240x256_S256x192_S10240x192_1_0_0_1_n_n none H w2' (constant S10240x192 .f32 0x00000000#32)
  have biased : FVec Ideal S10240x192 .f32 := addf prod (broadcastTo S10240x192 b2' broadcasts_S1x192_S10240x192)
  have zero : Ideal .f32 := Scalar.ofBits .f32 0x00000000#32
  have clamped : FVec Ideal S10240x192 .f32 := maximumf biased (broadcast S10240x192 zero)
  have perObject : FVec Ideal S1024x10x192 .f32 := shapeCast S1024x10x192 clamped shapeCasts_S10240x192_S1024x10x192
  multiReduction .add [1] S1024x192 perObject 0x00000000#32 reduces_S1024x10x192_S1024x192 (.inl rfl) rfl

/-- The pooled block at row p, unit f: the sum over the ten objects of the clamped second layer. -/
theorem pool_apply (H : FVec Ideal S10240x256 .bf16) (w2 : Vec Ideal S256x192 .bf16) (b2 : Vec Ideal S1x192 .f32)
    (p : Fin 1024) (f : Fin 192) :
    pool H w2 b2 (ix2 p f)
      = ∑ o : Fin 10, max ((∑ h : Fin 256, H (ix2 (⟨p.val * 10 + o.val, by omega⟩ : Fin 10240) h) * w2 (ix2 h f))
          + b2 (ix2 (0 : Fin 1) f)) 0 := by
  unfold pool
  dsimp only
  refine (LibObjectAxis.multiReduction_add_mid _ _ _ _ p f).trans ?_
  simp (disch := omega) only [LibObjectAxis.shapeCast_nc_abc_apply, broadcastTo_1b_ab_apply, shapeCast_self,
    maximumf_apply, addf_apply, broadcast_apply, Dots.mm_feat, Ideal.ofBits_def, Ideal.ofBits_zero_f32]

/-- The read-out network at row p of a pooled block. -/
theorem rho_apply (P : FVec Ideal S1024x192 .f32) (r1 : Vec Ideal S192x256 .f32) (rb1 : Vec Ideal S1x256 .f32)
    (r2 : Vec Ideal S256x1 .f32) (rb2 : Vec Ideal S1x1 .f32) (p : Fin 1024) :
    k0_pay5 (F := Ideal) P r1 rb1 r2 rb2 (ix2 p (0 : Fin 1))
      = (∑ h : Fin 256, max ((∑ f : Fin 192, P (ix2 p f) * r1 (ix2 f h)) + rb1 (ix2 (0 : Fin 1) h)) 0
            * r2 (ix2 h (0 : Fin 1)))
          + rb2 (ix2 (0 : Fin 1) (0 : Fin 1)) := by
  unfold k0_pay5
  simp only [broadcastTo_1b_ab_apply, shapeCast_self, maximumf_apply, addf_apply, broadcast_apply, Dots.mm_rho2,
    Dots.mm_rho1, Ideal.ofBits_def, Ideal.ofBits_zero_f32]

/-- One twin's whole body: first layer, second layer and pooling, read-out. -/
abbrev net (x0 : Vec Ideal S1024x80 .f32) (x1 : Vec Ideal S1024x10x184 .f32) (wb : Vec Ideal S80x256 .bf16)
    (wc : Vec Ideal S184x256 .bf16) (b1 : Vec Ideal S1x256 .f32) (w2 : Vec Ideal S256x192 .bf16) (b2 : Vec Ideal S1x192 .f32)
    (r1 : Vec Ideal S192x256 .f32) (rb1 : Vec Ideal S1x256 .f32) (r2 : Vec Ideal S256x1 .f32) (rb2 : Vec Ideal S1x1 .f32) :
    FVec Ideal S1024x1 .f32 :=
  k0_pay5 (F := Ideal) (pool (hid x0 x1 wb wc b1) w2 b2) r1 rb1 r2 rb2

/-- The value the body stores at row p is the critic of row p's data: the row's 80 features, its ten contexts, and the
    weights, where `w1` is any 264-row matrix whose first 80 rows are `wb` and whose last 184 rows are `wc`. -/
theorem net_apply (x0 : Vec Ideal S1024x80 .f32) (x1 : Vec Ideal S1024x10x184 .f32) (wb : Vec Ideal S80x256 .bf16)
    (wc : Vec Ideal S184x256 .bf16) (b1 : Vec Ideal S1x256 .f32) (w2 : Vec Ideal S256x192 .bf16) (b2 : Vec Ideal S1x192 .f32)
    (r1 : Vec Ideal S192x256 .f32) (rb1 : Vec Ideal S1x256 .f32) (r2 : Vec Ideal S256x1 .f32) (rb2 : Vec Ideal S1x1 .f32)
    (w1 : Fin 264 → Fin 256 → EReal)
    (hb : ∀ (d : Fin 80) (h : Fin 256), wb (ix2 d h) = w1 ⟨d.val, by omega⟩ h)
    (hc : ∀ (d : Fin 184) (h : Fin 256), wc (ix2 d h) = w1 ⟨80 + d.val, by omega⟩ h) (p : Fin 1024) :
    net x0 x1 wb wc b1 w2 b2 r1 rb1 r2 rb2 (ix2 p (0 : Fin 1))
      = Critic.q (fun d => x0 (ix2 p d)) (fun o d => x1 (ix3 p o d)) w1 (fun h => b1 (ix2 (0 : Fin 1) h))
          (fun h f => w2 (ix2 h f)) (fun f => b2 (ix2 (0 : Fin 1) f)) (fun f h => r1 (ix2 f h))
          (fun h => rb1 (ix2 (0 : Fin 1) h)) (fun h => r2 (ix2 h (0 : Fin 1))) (rb2 (ix2 (0 : Fin 1) (0 : Fin 1))) := by
  unfold net
  rw [rho_apply]
  unfold Critic.q Critic.rhoHidden Critic.pooled Critic.feature Critic.hidden
  simp only [pool_apply, hid_apply, hb, hc]

/-- The first twin's stored payload is the composition. -/
theorem pay_a (x0 : Vec Ideal S1024x80 .f32) (x1 : Vec Ideal S1024x10x184 .f32) (x2 : Vec Ideal S80x256 .bf16)
    (x3 : Vec Ideal S184x256 .bf16) (x4 : Vec Ideal S1x256 .f32) (x5 : Vec Ideal S256x192 .bf16) (x6 : Vec Ideal S1x192 .f32)
    (x12 : Vec Ideal S192x256 .f32) (x13 : Vec Ideal S1x256 .f32) (x14 : Vec Ideal S256x1 .f32) (x15 : Vec Ideal S1x1 .f32) :
    k0_pay5 (F := Ideal) (k0_pay4 x0 x1 x2 x3 x4 x5 x6) x12 x13 x14 x15 = net x0 x1 x2 x3 x4 x5 x6 x12 x13 x14 x15 := rfl

/-- The second twin's stored payload is the composition. -/
theorem pay_b (x0 : Vec Ideal S1024x80 .f32) (x1 : Vec Ideal S1024x10x184 .f32) (x7 : Vec Ideal S80x256 .bf16)
    (x8 : Vec Ideal S184x256 .bf16) (x9 : Vec Ideal S1x256 .f32) (x10 : Vec Ideal S256x192 .bf16) (x11 : Vec Ideal S1x192 .f32)
    (x16 : Vec Ideal S192x256 .f32) (x17 : Vec Ideal S1x256 .f32) (x18 : Vec Ideal S256x1 .f32) (x19 : Vec Ideal S1x1 .f32) :
    k0_pay1 (F := Ideal) (k0_pay6 (k0_pay2 x0) (k0_pay3 x1) x7 x8 x9) (k0_pay7 x10) x11 x16 x17 x18 x19
      = net x0 x1 x7 x8 x9 x10 x11 x16 x17 x18 x19 := rfl

end Cert.KernelIdeal.Stage

end
-- ==== Proof.CriticArrays.lean ====
/-
  The specification both programs are compared against: each result array as ONE function of the argument arrays.

  `rowQ` reads row b out of the whole arrays — the body-and-action array [32768, 80], the contexts [32768, 10, 184] — and
  the weights and biases out of theirs, and is the critic `Critic.q` of that row. `G` is the [32768, 1] array whose entry
  (b, 0) is `rowQ` at b.
-/
import proofs.«156536_j73959336837233_2_alg».proof.Proof.Critic
import Idealize.ShloMosaic.PureOps.Ideal
import Idealize.ShloMosaic.Lib.ValueIdx

noncomputable section

namespace Cert.Critic

open Idealize.ShloMosaic Idealize.ShloMosaic.ValueIdx

section
variable (ba : FVec Ideal ⟨2, ![32768, 80]⟩ .f32) (cx : FVec Ideal ⟨3, ![32768, 10, 184]⟩ .f32)
  (w1 : FVec Ideal ⟨2, ![264, 256]⟩ .f32) (b1 : FVec Ideal ⟨1, ![256]⟩ .f32)
  (w2 : FVec Ideal ⟨2, ![256, 192]⟩ .f32) (b2 : FVec Ideal ⟨1, ![192]⟩ .f32)
  (r1 : FVec Ideal ⟨2, ![192, 256]⟩ .f32) (rb1 : FVec Ideal ⟨1, ![256]⟩ .f32)
  (r2 : FVec Ideal ⟨2, ![256, 1]⟩ .f32) (rb2 : FVec Ideal ⟨1, ![1]⟩ .f32)

/-- The critic of batch row `b`, read out of the whole arrays. -/
def rowQ (b : Fin 32768) : EReal :=
  q (fun d => ba (ix2 b d)) (fun o d => cx (ix3 b o d)) (fun k h => w1 (ix2 k h)) (fun h => b1 (ix1 h))
    (fun h f => w2 (ix2 h f)) (fun f => b2 (ix1 f)) (fun f h => r1 (ix2 f h)) (fun h => rb1 (ix1 h))
    (fun h => r2 (ix2 h (0 : Fin 1))) (rb2 (ix1 (0 : Fin 1)))

/-- The result array: at (b, 0), the critic of row b. -/
def G : FVec Ideal ⟨2, ![32768, 1]⟩ .f32 :=
  fun i => rowQ ba cx w1 b1 w2 b2 r1 rb1 r2 rb2 ⟨(i 0).val, (i 0).isLt⟩

theorem G_apply (b : Fin 32768) (z : Fin 1) :
    G ba cx w1 b1 w2 b2 r1 rb1 r2 rb2 (ix2 b z) = rowQ ba cx w1 b1 w2 b2 r1 rb1 r2 rb2 b := rfl

end

end Cert.Critic

end
-- ==== Proof.KernelValue.lean ====
/-
  From blocks to arrays: the kernel's two result arrays after the run are the specification `Critic.G`.

  Point t of the grid writes back, into rows 1024 t .. 1024 t + 1023 of each result array, what the body stored: at row
  p of the block the critic of row p's data (`KernelStages.lean`), and row p's data is row 1024 t + p of the argument
  arrays (`KernelArrays.lean`). So each point writes its own rows of `G`; the 32 blocks cover the 32768 rows (row r lies
  in the block of point r / 1024); hence the array is `G`. The run is the generated frame run with the two result
  arrays named.
-/
import proofs.«156536_j73959336837233_2_alg».proof.Proof.KernelArrays
import proofs.«156536_j73959336837233_2_alg».proof.Proof.KernelStages
import proofs.«156536_j73959336837233_2_alg».proof.Proof.CriticArrays

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-- The first twin's result: the specification at the body-and-action array the host prepared, the contexts, and the
    first twin's weights and biases. -/
abbrev Ga (c : Dev nD) : FVec Ideal S32768x1 .f32 :=
  Critic.G (V m c main_v1) (m ((c : Thread nD τ).loc main_arg2)) (m ((c : Thread nD τ).loc main_arg3)) (m ((c : Thread nD τ).loc main_arg4)) (m ((c : Thread nD τ).loc main_arg5)) (m ((c : Thread nD τ).loc main_arg6))
    (m ((c : Thread nD τ).loc main_arg11)) (m ((c : Thread nD τ).loc main_arg12)) (m ((c : Thread nD τ).loc main_arg13)) (m ((c : Thread nD τ).loc main_arg14))

/-- The second twin's result: the same, at the second twin's weights and biases. -/
abbrev Gb (c : Dev nD) : FVec Ideal S32768x1 .f32 :=
  Critic.G (V m c main_v1) (m ((c : Thread nD τ).loc main_arg2)) (m ((c : Thread nD τ).loc main_arg7)) (m ((c : Thread nD τ).loc main_arg8)) (m ((c : Thread nD τ).loc main_arg9)) (m ((c : Thread nD τ).loc main_arg10))
    (m ((c : Thread nD τ).loc main_arg15)) (m ((c : Thread nD τ).loc main_arg16)) (m ((c : Thread nD τ).loc main_arg17)) (m ((c : Thread nD τ).loc main_arg18))

/-- WHAT POINT t WRITES BACK to the a result: rows 1024 t .. 1024 t + 1023 of the specification. -/
theorem flushed20_eq (c : Dev nD) (t : Fin cfg0.N) :
    (dats m 0 c).flushed 20 t = ((cfg0.win 20).blk t).view.read (Elt Ideal) (Ga m c) := by
  rw [Value.flushed20]
  unfold out0_20
  rw [View.canon_unit_zero hz]
  simp only [View.ld_unit_zero (S := S1024x80) hz, View.ld_unit_zero (S := S80x256) hz, View.ld_unit_zero (S := S184x256) hz, View.ld_unit_zero (S := S1x256) hz, View.ld_unit_zero (S := S256x192) hz, View.ld_unit_zero (S := S1x192) hz, View.ld_unit_zero (S := S192x256) hz, View.ld_unit_zero (S := S256x1) hz, View.ld_unit_zero (S := S1x1) hz, View.ld_unit_zero (S := S1024x10x184) hz3]
  rw [Stage.pay_a]
  refine funext fun (y : S1024x1.Idx) => ?_
  obtain ⟨p, z, rfl⟩ : ∃ (p : Fin 1024) (z : Fin 1), y = ix2 p z := ⟨y 0, y 1, eq_ix2 y⟩
  obtain rfl : z = 0 := Subsingleton.elim _ _
  have hN : cfg0.N = 32 := N_0
  have hlt : t.val * 1024 + p.val < 32768 := by have := t.isLt; have := p.isLt; omega
  obtain ⟨e0, e1⟩ := idx20 t
  have hemb : ((cfg0.win 20).blk t).view.emb (ix2 p (0 : Fin 1))
      = ix2 (⟨t.val * 1024 + p.val, hlt⟩ : Fin 32768) (0 : Fin 1) := funext fun a => Fin.ext (by
    match a with
    | ⟨0, _⟩ => show win0_20.index t 0 * 1024 + 1 * p.val = t.val * 1024 + p.val; rw [e0]; omega
    | ⟨1, _⟩ => show win0_20.index t 1 * 1 + 1 * 0 = 0; rw [e1])
  show Stage.net (iblk m c 0 t) (iblk m c 1 t) (iblk m c 2 t) (iblk m c 3 t) (iblk m c 4 t) (iblk m c 5 t) (iblk m c 6 t) (iblk m c 12 t) (iblk m c 13 t) (iblk m c 14 t) (iblk m c 15 t) (ix2 p (0 : Fin 1))
    = Ga m c (((cfg0.win 20).blk t).view.emb (ix2 p (0 : Fin 1)))
  rw [hemb]
  unfold Ga
  rw [Critic.G_apply]
  refine (Stage.net_apply (iblk m c 0 t) (iblk m c 1 t) (iblk m c 2 t) (iblk m c 3 t) (iblk m c 4 t) (iblk m c 5 t) (iblk m c 6 t) (iblk m c 12 t) (iblk m c 13 t) (iblk m c 14 t) (iblk m c 15 t)
    (fun k h => ((m ((c : Thread nD τ).loc main_arg3)) : FVec Ideal S264x256 .f32) (ix2 k h))
    (fun d h => blk2 m c t d h) (fun d h => blk3 m c t d h) p).trans ?_
  unfold Critic.rowQ
  simp only [blk0 m c t p _ hlt, blk1 m c t p _ _ hlt, blk4, blk5, blk6, blk12, blk13, blk14, blk15]

/-- An index of the a result array is in point t's block iff each coordinate is in the block's range. -/
theorem mem_blk20 (t : Fin cfg0.N) (i : S32768x1.Idx) :
    i ∈ ((cfg0.win 20).blk t).view.set ↔ ∀ a : Fin 2, win0_20.index t a * S1024x1.size a ≤ (i a).val
      ∧ (i a).val < win0_20.index t a * S1024x1.size a + S1024x1.size a := by
  show i ∈ ((View.whole main_v20_0).slice (win0_20.rect t)).set ↔ _
  rw [View.set_slice_whole, Rect.mem_set_unit]
  exact Iff.rfl

/-- Every batch row lies in the block of the point that holds it: row r in the block of point r / 1024. -/
theorem cover20 (i : S32768x1.Idx) :
    ∃ t : Fin cfg0.N, (cfg0.win 20).flush t = true ∧ i ∈ ((cfg0.win 20).blk t).view.set := by
  have hN : cfg0.N = 32 := N_0
  have hi0 : (i 0).val < 32768 := (i 0).isLt
  have hi1 : (i 1).val < 1 := (i 1).isLt
  refine ⟨⟨(i 0).val / 1024, by rw [hN]; omega⟩, flush0_20 _, ?_⟩
  rw [mem_blk20]
  obtain ⟨e0, e1⟩ := idx20 ⟨(i 0).val / 1024, by rw [hN]; omega⟩
  intro a
  match a with
  | ⟨0, _⟩ =>
    show win0_20.index _ 0 * 1024 ≤ (i 0).val ∧ (i 0).val < win0_20.index _ 0 * 1024 + 1024
    rw [e0]
    show (i 0).val / 1024 * 1024 ≤ (i 0).val ∧ (i 0).val < (i 0).val / 1024 * 1024 + 1024
    omega
  | ⟨1, _⟩ =>
    show win0_20.index _ 1 * 1 ≤ (i 1).val ∧ (i 1).val < win0_20.index _ 1 * 1 + 1
    rw [e1]
    omega

/-- The a result array after the run is the specification of the argument arrays. -/
theorem final20 (c : Dev nD) : (dats m 0 c).arrAt 20 cfg0.N = Ga m c :=
  (dats m 0 c).arrAt_eq_of_cover 20 (Ga m c) (fun t _ => flushed20_eq m c t) cover20

/-- WHAT POINT t WRITES BACK to the b result: rows 1024 t .. 1024 t + 1023 of the specification. -/
theorem flushed21_eq (c : Dev nD) (t : Fin cfg0.N) :
    (dats m 0 c).flushed 21 t = ((cfg0.win 21).blk t).view.read (Elt Ideal) (Gb m c) := by
  rw [Value.flushed21]
  unfold out0_21
  rw [View.canon_unit_zero hz]
  simp only [View.ld_unit_zero (S := S1024x80) hz, View.ld_unit_zero (S := S80x256) hz, View.ld_unit_zero (S := S184x256) hz, View.ld_unit_zero (S := S1x256) hz, View.ld_unit_zero (S := S256x192) hz, View.ld_unit_zero (S := S1x192) hz, View.ld_unit_zero (S := S192x256) hz, View.ld_unit_zero (S := S256x1) hz, View.ld_unit_zero (S := S1x1) hz, View.ld_unit_zero (S := S1024x10x184) hz3]
  rw [Stage.pay_b]
  refine funext fun (y : S1024x1.Idx) => ?_
  obtain ⟨p, z, rfl⟩ : ∃ (p : Fin 1024) (z : Fin 1), y = ix2 p z := ⟨y 0, y 1, eq_ix2 y⟩
  obtain rfl : z = 0 := Subsingleton.elim _ _
  have hN : cfg0.N = 32 := N_0
  have hlt : t.val * 1024 + p.val < 32768 := by have := t.isLt; have := p.isLt; omega
  obtain ⟨e0, e1⟩ := idx21 t
  have hemb : ((cfg0.win 21).blk t).view.emb (ix2 p (0 : Fin 1))
      = ix2 (⟨t.val * 1024 + p.val, hlt⟩ : Fin 32768) (0 : Fin 1) := funext fun a => Fin.ext (by
    match a with
    | ⟨0, _⟩ => show win0_21.index t 0 * 1024 + 1 * p.val = t.val * 1024 + p.val; rw [e0]; omega
    | ⟨1, _⟩ => show win0_21.index t 1 * 1 + 1 * 0 = 0; rw [e1])
  show Stage.net (iblk m c 0 t) (iblk m c 1 t) (iblk m c 7 t) (iblk m c 8 t) (iblk m c 9 t) (iblk m c 10 t) (iblk m c 11 t) (iblk m c 16 t) (iblk m c 17 t) (iblk m c 18 t) (iblk m c 19 t) (ix2 p (0 : Fin 1))
    = Gb m c (((cfg0.win 21).blk t).view.emb (ix2 p (0 : Fin 1)))
  rw [hemb]
  unfold Gb
  rw [Critic.G_apply]
  refine (Stage.net_apply (iblk m c 0 t) (iblk m c 1 t) (iblk m c 7 t) (iblk m c 8 t) (iblk m c 9 t) (iblk m c 10 t) (iblk m c 11 t) (iblk m c 16 t) (iblk m c 17 t) (iblk m c 18 t) (iblk m c 19 t)
    (fun k h => ((m ((c : Thread nD τ).loc main_arg7)) : FVec Ideal S264x256 .f32) (ix2 k h))
    (fun d h => blk7 m c t d h) (fun d h => blk8 m c t d h) p).trans ?_
  unfold Critic.rowQ
  simp only [blk0 m c t p _ hlt, blk1 m c t p _ _ hlt, blk9, blk10, blk11, blk16, blk17, blk18, blk19]

/-- An index of the b result array is in point t's block iff each coordinate is in the block's range. -/
theorem mem_blk21 (t : Fin cfg0.N) (i : S32768x1.Idx) :
    i ∈ ((cfg0.win 21).blk t).view.set ↔ ∀ a : Fin 2, win0_21.index t a * S1024x1.size a ≤ (i a).val
      ∧ (i a).val < win0_21.index t a * S1024x1.size a + S1024x1.size a := by
  show i ∈ ((View.whole main_v20_1).slice (win0_21.rect t)).set ↔ _
  rw [View.set_slice_whole, Rect.mem_set_unit]
  exact Iff.rfl

/-- Every batch row lies in the block of the point that holds it: row r in the block of point r / 1024. -/
theorem cover21 (i : S32768x1.Idx) :
    ∃ t : Fin cfg0.N, (cfg0.win 21).flush t = true ∧ i ∈ ((cfg0.win 21).blk t).view.set := by
  have hN : cfg0.N = 32 := N_0
  have hi0 : (i 0).val < 32768 := (i 0).isLt
  have hi1 : (i 1).val < 1 := (i 1).isLt
  refine ⟨⟨(i 0).val / 1024, by rw [hN]; omega⟩, flush0_21 _, ?_⟩
  rw [mem_blk21]
  obtain ⟨e0, e1⟩ := idx21 ⟨(i 0).val / 1024, by rw [hN]; omega⟩
  intro a
  match a with
  | ⟨0, _⟩ =>
    show win0_21.index _ 0 * 1024 ≤ (i 0).val ∧ (i 0).val < win0_21.index _ 0 * 1024 + 1024
    rw [e0]
    show (i 0).val / 1024 * 1024 ≤ (i 0).val ∧ (i 0).val < (i 0).val / 1024 * 1024 + 1024
    omega
  | ⟨1, _⟩ =>
    show win0_21.index _ 1 * 1 ≤ (i 1).val ∧ (i 1).val < win0_21.index _ 1 * 1 + 1
    rw [e1]
    omega

/-- The b result array after the run is the specification of the argument arrays. -/
theorem final21 (c : Dev nD) : (dats m 0 c).arrAt 21 cfg0.N = Gb m c :=
  (dats m 0 c).arrAt_eq_of_cover 21 (Gb m c) (fun t _ => flushed21_eq m c t) cover21

/-- The run, read: each result array at the specification of the argument arrays, the arguments unchanged. -/
theorem run : θ_run defs (onTc (τ := τ) (main (F := Ideal))) ⟨m, fun _ => 0, ρ⟩ fun r => ∀ c : Dev nD,
      r.2.mem ((c : Thread nD τ).loc main_v20_0) = Ga m c
      ∧ r.2.mem ((c : Thread nD τ).loc main_v20_1) = Gb m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨(h c).1.trans (final20 m c), (h c).2.1.trans (final21 m c), (h c).2.2⟩)
    (Value.run_blocks m ρ)

end Cert.KernelIdeal.Hand

end
-- ==== Proof.RefValue.lean ====
/-
  The reference's two results are the specification `Critic.G` of the argument arrays.

  The reference joins each row's 80 body-and-action features (spread over the ten objects) with the objects' 184
  context features into [32768, 10, 264], contracts that against the whole first weight matrix, adds the bias, clamps;
  contracts against the second weights, adds the bias, clamps; sums over the objects from zero; and runs the read-out
  network. Read at batch row b, object o, unit h these are the stages of `Critic.lean`:

    `joined_at`   the joined array at (b, o, k) is `Critic.xcat` of row b's data (the first piece below position 80, the
                  second from there on);
    `hidden_at`   the first layer is `Critic.hidden` — the one place the two programs differ: a contraction over the 264
                  joined positions is the body part plus the context part (`Critic.hidden_concat`);
    `feature_at`, `pooled_at` (0 + the sum is the sum), `rhoHidden_at`, `result_eq`.

  The second twin is the same operations on the other weight arrays: its term IS the first twin's term of those arrays.
-/
import proofs.«156536_j73959336837233_2_alg».proof.Proof.Gen.ReferenceIdeal.Read
import proofs.«156536_j73959336837233_2_alg».proof.Proof.CriticArrays

noncomputable section

open scoped BigOperators

namespace Cert.ReferenceIdeal.RefValue

open Cert.ReferenceIdeal Cert.ReferenceIdeal.Gen Cert.ReferenceIdeal.Read Idealize.ShloMosaic Idealize.ShloMosaic.ValueIdx
open Idealize.ShloMosaic.StableHlo

variable (x0 : (⟨S32768x100, .f32⟩ : BufTy).Contents (Elt Ideal)) (x1 : (⟨S32768x16, .f32⟩ : BufTy).Contents (Elt Ideal)) (x2 : (⟨S32768x10x184, .f32⟩ : BufTy).Contents (Elt Ideal))
  (x3 : (⟨S264x256, .f32⟩ : BufTy).Contents (Elt Ideal)) (x4 : (⟨S256, .f32⟩ : BufTy).Contents (Elt Ideal)) (x5 : (⟨S256x192, .f32⟩ : BufTy).Contents (Elt Ideal)) (x6 : (⟨S192, .f32⟩ : BufTy).Contents (Elt Ideal))
  (x11 : (⟨S192x256, .f32⟩ : BufTy).Contents (Elt Ideal)) (x12 : (⟨S256, .f32⟩ : BufTy).Contents (Elt Ideal)) (x13 : (⟨S256x1, .f32⟩ : BufTy).Contents (Elt Ideal)) (x14 : (⟨S1, .f32⟩ : BufTy).Contents (Elt Ideal))

/-- The body-and-action array, as the reference computes it. -/
abbrev ba : (⟨S32768x80, .f32⟩ : BufTy).Contents (Elt Ideal) := val_main_v1 (F := Ideal) x0 x1

/-- The joined features at row b, object o, position k. -/
theorem joined_at (b : Fin 32768) (o : Fin 10) (k : Fin 264) :
    val_main_v4 (F := Ideal) x0 x1 x2 (ix3 b o k)
      = Critic.xcat (fun d => ba x0 x1 (ix2 b d)) (fun o d => x2 (ix3 b o d)) o k := by
  unfold val_main_v4 Critic.xcat
  by_cases hk : k.val < 80
  · rw [dif_pos hk]
    refine (concatenate_pair_apply_left (s₁ := S32768x10x80) (s₂ := S32768x10x184) _ _ _ _ (ix3 b o k) rfl (ix3 b o (⟨k.val, hk⟩ : Fin 80)) (fun a => ?_)).trans ?_
    · match a with
      | ⟨0, _⟩ => rfl
      | ⟨1, _⟩ => rfl
      | ⟨2, _⟩ => rfl
    · rw [val_main_v3_apply, val_main_v2_apply]
      exact congrArg _ (funext fun a => Fin.ext (by
        match a with
        | ⟨0, _⟩ => rfl
        | ⟨1, _⟩ => rfl))
  · rw [dif_neg hk]
    refine concatenate_pair_apply_right (s₁ := S32768x10x80) (s₂ := S32768x10x184) _ _ _ _ (ix3 b o k) rfl rfl (ix3 b o (⟨k.val - 80, by omega⟩ : Fin 184)) (fun a ha => ?_) ?_
    · match a with
      | ⟨0, _⟩ => rfl
      | ⟨1, _⟩ => rfl
      | ⟨2, _⟩ => exact absurd rfl ha
    · show (k.val - 80) + 80 = k.val
      omega

/-- The first layer at row b, object o, unit h. -/
theorem hidden_at (b : Fin 32768) (o : Fin 10) (h : Fin 256) :
    val_main_v9 (F := Ideal) x0 x1 x2 x3 x4 (ix3 b o h)
      = Critic.hidden (fun d => ba x0 x1 (ix2 b d)) (fun o d => x2 (ix3 b o d)) (fun k h => x3 (ix2 k h))
          (fun h => x4 (ix1 h)) o h := by
  rw [← Critic.hidden_concat, val_main_v9_apply, val_main_v8_apply, val_main_v5_apply, val_main_v7_apply, val_main_v6_apply,
    val_main_call0_v0_apply, val_main_call0_cst_apply]
  have el : ∀ k, lidx_main_v5 (ix3 b o h) k = ix3 b o k := fun k => funext fun a => by
    match a with
    | ⟨0, _⟩ => rfl
    | ⟨1, _⟩ => rfl
    | ⟨2, _⟩ => rfl
  have er : ∀ k, ridx_main_v5 (ix3 b o h) k = ix2 k h := fun k => funext fun a => by
    match a with
    | ⟨0, _⟩ => rfl
    | ⟨1, _⟩ => rfl
  have eb : idx_main_v6 (idx_main_v7 (ix3 b o h)) = ix1 h := funext fun a => by
    match a with
    | ⟨0, _⟩ => rfl
  simp only [el, er, eb, joined_at, Ideal.ofBits_def, Ideal.ofBits_zero_f32]
  rfl

/-- The second layer at row b, object o, unit f. -/
theorem feature_at (b : Fin 32768) (o : Fin 10) (f : Fin 192) :
    val_main_v14 (F := Ideal) x0 x1 x2 x3 x4 x5 x6 (ix3 b o f)
      = Critic.feature (fun d => ba x0 x1 (ix2 b d)) (fun o d => x2 (ix3 b o d)) (fun k h => x3 (ix2 k h))
          (fun h => x4 (ix1 h)) (fun h f => x5 (ix2 h f)) (fun f => x6 (ix1 f)) o f := by
  unfold Critic.feature
  rw [val_main_v14_apply, val_main_v13_apply, val_main_v10_apply, val_main_v12_apply, val_main_v11_apply,
    val_main_call1_v0_apply, val_main_call1_cst_apply]
  have el : ∀ k, lidx_main_v10 (ix3 b o f) k = ix3 b o k := fun k => funext fun a => by
    match a with
    | ⟨0, _⟩ => rfl
    | ⟨1, _⟩ => rfl
    | ⟨2, _⟩ => rfl
  have er : ∀ k, ridx_main_v10 (ix3 b o f) k = ix2 k f := fun k => funext fun a => by
    match a with
    | ⟨0, _⟩ => rfl
    | ⟨1, _⟩ => rfl
  have eb : idx_main_v11 (idx_main_v12 (ix3 b o f)) = ix1 f := funext fun a => by
    match a with
    | ⟨0, _⟩ => rfl
  simp only [el, er, eb, hidden_at, Ideal.ofBits_def, Ideal.ofBits_zero_f32]
  rfl

/-- The features summed over the objects, at row b, unit f. -/
theorem pooled_at (b : Fin 32768) (f : Fin 192) :
    val_main_v15 (F := Ideal) x0 x1 x2 x3 x4 x5 x6 (ix2 b f)
      = Critic.pooled (fun d => ba x0 x1 (ix2 b d)) (fun o d => x2 (ix3 b o d)) (fun k h => x3 (ix2 k h))
          (fun h => x4 (ix1 h)) (fun h f => x5 (ix2 h f)) (fun f => x6 (ix1 f)) f := by
  unfold Critic.pooled
  rw [val_main_v15_apply, val_main_cst_apply]
  have ei : ∀ k, idx_main_v15 (ix2 b f) k = ix3 b k f := fun k => funext fun a => by
    match a with
    | ⟨0, _⟩ => rfl
    | ⟨1, _⟩ => rfl
    | ⟨2, _⟩ => rfl
  simp only [ei, feature_at, Ideal.ofBits_def, Ideal.ofBits_zero_f32]
  exact zero_add _

/-- The read-out network's hidden layer at row b, unit h. -/
theorem rhoHidden_at (b : Fin 32768) (h : Fin 256) :
    val_main_v31 (F := Ideal) x0 x1 x2 x3 x4 x5 x6 x11 x12 (ix2 b h)
      = Critic.rhoHidden (fun d => ba x0 x1 (ix2 b d)) (fun o d => x2 (ix3 b o d)) (fun k h => x3 (ix2 k h))
          (fun h => x4 (ix1 h)) (fun h f => x5 (ix2 h f)) (fun f => x6 (ix1 f)) (fun f h => x11 (ix2 f h))
          (fun h => x12 (ix1 h)) h := by
  unfold Critic.rhoHidden
  rw [val_main_v31_apply, val_main_v30_apply, val_main_v27_apply, val_main_v29_apply, val_main_v28_apply,
    val_main_call4_v0_apply, val_main_call4_cst_apply]
  have el : ∀ k, lidx_main_v27 (ix2 b h) k = ix2 b k := fun k => funext fun a => by
    match a with
    | ⟨0, _⟩ => rfl
    | ⟨1, _⟩ => rfl
  have er : ∀ k, ridx_main_v27 (ix2 b h) k = ix2 k h := fun k => funext fun a => by
    match a with
    | ⟨0, _⟩ => rfl
    | ⟨1, _⟩ => rfl
  have eb : idx_main_v28 (idx_main_v29 (ix2 b h)) = ix1 h := funext fun a => by
    match a with
    | ⟨0, _⟩ => rfl
  simp only [el, er, eb, pooled_at, Ideal.ofBits_def, Ideal.ofBits_zero_f32]
  rfl

/-- The first result is the specification of the argument arrays. -/
theorem result_eq :
    val_main_v35 (F := Ideal) x0 x1 x2 x3 x4 x5 x6 x11 x12 x13 x14
      = Critic.G (ba x0 x1) x2 x3 x4 x5 x6 x11 x12 x13 x14 := by
  funext i
  obtain ⟨b, z, rfl⟩ : ∃ (b : Fin 32768) (z : Fin 1), i = ix2 b z := ⟨i 0, i 1, eq_ix2 i⟩
  rw [Critic.G_apply]
  unfold Critic.rowQ Critic.q
  rw [val_main_v35_apply, val_main_v32_apply, val_main_v34_apply, val_main_v33_apply]
  have hz : z = 0 := Subsingleton.elim _ _
  subst hz
  have el : ∀ k, lidx_main_v32 (ix2 b (0 : Fin 1)) k = ix2 b k := fun k => funext fun a => by
    match a with
    | ⟨0, _⟩ => rfl
    | ⟨1, _⟩ => rfl
  have er : ∀ k, ridx_main_v32 (ix2 b (0 : Fin 1)) k = ix2 k (0 : Fin 1) := fun k => funext fun a => by
    match a with
    | ⟨0, _⟩ => rfl
    | ⟨1, _⟩ => rfl
  have eb : idx_main_v33 (idx_main_v34 (ix2 b (0 : Fin 1))) = ix1 (0 : Fin 1) := funext fun a => by
    match a with
    | ⟨0, _⟩ => rfl
  simp only [el, er, eb, rhoHidden_at]
  rfl

end Cert.ReferenceIdeal.RefValue

end
-- ==== Proof.lean ====
/-
  The twin-critic read-out kernel against its reference: `Cert.Claim`.

  Both programs compute, for each of the 32768 batch rows and each of the two twins, the critic of `Proof/Critic.lean`:
  a two-layer network applied to each of the row's ten objects (input: the row's 80 body-and-action features joined with
  the object's 184 context features), the objects' outputs summed, and a two-layer read-out network on the sum. The
  reference contracts the joined 264 features against the whole first weight matrix; the kernel contracts the 80
  body-and-action features against the matrix's first 80 rows once per batch row, the 184 context features against its
  last 184 rows once per object, and adds the two — the same sum, split (`Critic.sum_split`). Everything else differs only
  in layout (the kernel works on blocks of 1024 rows with the objects' axis flattened into the rows) and in float formats,
  which are the identity on the extended reals. No finiteness of the inputs is used: splitting and reordering a finite sum
  needs only that addition of extended reals is commutative and associative.

  `Proof/Critic.lean`        the critic of one row, and the split law at the first layer;
  `Proof/CriticArrays.lean`  the specification `Critic.G`: a result array as one function of the argument arrays;
  `Proof/KernelDots.lean`, `Proof/KernelStages.lean`   the kernel's body at one entry of its output block;
  `Proof/KernelArrays.lean`, `Proof/KernelValue.lean`  the blocks as rows of the arguments; the result arrays are `G`;
  `Proof/RefValue.lean`      the reference's results are `G`.

  The frames of the two kernel programs are the generated frame certificates; the reference's frame is its generated run
  with the results dropped; the idealization rewrote no operation, so `preserves` is `True`.
-/
import proofs.«156536_j73959336837233_2_alg».proof.Defs
import proofs.«156536_j73959336837233_2_alg».proof.Proof.Gen.Kernel
import proofs.«156536_j73959336837233_2_alg».proof.Proof.Gen.Kernel.Skeleton
import proofs.«156536_j73959336837233_2_alg».proof.Proof.Gen.Kernel.Launch
import proofs.«156536_j73959336837233_2_alg».proof.Proof.Gen.Kernel.Points
import proofs.«156536_j73959336837233_2_alg».proof.Proof.Gen.Kernel.Frame
import proofs.«156536_j73959336837233_2_alg».proof.Proof.Gen.KernelIdeal
import proofs.«156536_j73959336837233_2_alg».proof.Proof.Gen.KernelIdeal.Skeleton
import proofs.«156536_j73959336837233_2_alg».proof.Proof.Gen.KernelIdeal.Launch
import proofs.«156536_j73959336837233_2_alg».proof.Proof.Gen.KernelIdeal.Points
import proofs.«156536_j73959336837233_2_alg».proof.Proof.Gen.KernelIdeal.Frame
import proofs.«156536_j73959336837233_2_alg».proof.Proof.Gen.ReferenceIdeal
import proofs.«156536_j73959336837233_2_alg».proof.Proof.Gen.KernelIdeal.Value
import proofs.«156536_j73959336837233_2_alg».proof.Proof.Gen.ReferenceIdeal.Run
import proofs.«156536_j73959336837233_2_alg».proof.Proof.Gen.ReferenceIdeal.Read
import proofs.«156536_j73959336837233_2_alg».proof.Proof.Gen.Pre_finite_inputs
import proofs.«156536_j73959336837233_2_alg».proof.Proof.KernelValue
import proofs.«156536_j73959336837233_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- The body-and-action array is one term in both programs: the observation's first 64 columns joined with the action. -/
theorem bodyAct_eq (m : (ℓ : Loc Cert.KernelIdeal.nD Cert.KernelIdeal.τ Cert.KernelIdeal.sig) → Buf (Elt Ideal) ℓ)
    (c : Dev Cert.KernelIdeal.nD) :
    @Eq (FVec Ideal ⟨2, ![32768, 80]⟩ .f32)
      (Cert.ReferenceIdeal.Read.val_main_v1 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (Cert.KernelIdeal.Gen.V m c Cert.KernelIdeal.main_v1) := by
  rw [Cert.KernelIdeal.Hand.V_main_v1]
  rfl

/-- From memories that agree on the arguments, both programs end with each result array at the specification of the
    arguments: the kernel's by its blocks (`Hand.run`), the reference's by its run read stage by stage
    (`RefValue.result_eq`; the second twin's term is the first twin's term of the second twin's weights). -/
theorem algebraic : Cert.algebraic_KernelIdeal_ReferenceIdeal := by
  intro m ρ m' ρ' _ hagree
  refine ⟨fun c => Cert.KernelIdeal.Hand.Ga m c, fun c => Cert.KernelIdeal.Hand.Gb m c, Cert.KernelIdeal.Hand.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14, a15, a16, a17, a18⟩ := hagree c
    rw [a0, a1, a2, a3, a4, a5, a6, a11, a12, a13, a14, Cert.ReferenceIdeal.Read.val_main_v35_eq,
      Cert.ReferenceIdeal.RefValue.result_eq]
    exact congrArg (fun ba => Cert.Critic.G ba _ _ _ _ _ _ _ _ _) (bodyAct_eq m c)
  · obtain ⟨a0, a1, a2, a3, a4, a5, a6, a7, a8, a9, a10, a11, a12, a13, a14, a15, a16, a17, a18⟩ := hagree c
    rw [a0, a1, a2, a7, a8, a9, a10, a15, a16, a17, a18, Cert.ReferenceIdeal.Read.val_main_v35_eq,
      Cert.ReferenceIdeal.RefValue.result_eq]
    exact congrArg (fun ba => Cert.Critic.G ba _ _ _ _ _ _ _ _ _) (bodyAct_eq m c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
